-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x768 : Shape := ⟨3, ![64, 128, 768]⟩
abbrev S64x128 : Shape := ⟨2, ![64, 128]⟩
abbrev S64x1024x768 : Shape := ⟨3, ![64, 1024, 768]⟩
abbrev S64x1024 : Shape := ⟨2, ![64, 1024]⟩
abbrev S128x768 : Shape := ⟨2, ![128, 768]⟩
abbrev S_ : Shape := ⟨0, ![]⟩

class Facts : Prop where
  bcast_S_S64x128x768 : S_.BroadcastsInDim S64x128x768 (![] : Fin 0 → Fin S64x128x768.rank)
  reducesTo_S64x128x768_S_d0_1_2 : S64x128x768.ReducesTo [0, 1, 2] S_
  h_S_ : 0 < S_.numel
  bcast_S_S64x1024x768 : S_.BroadcastsInDim S64x1024x768 (![] : Fin 0 → Fin S64x1024x768.rank)
  reducesTo_S64x1024x768_S_d0_1_2 : S64x1024x768.ReducesTo [0, 1, 2] S_
  bcast_S_S128x768 : S_.BroadcastsInDim S128x768 (![] : Fin 0 → Fin S128x768.rank)
  reducesTo_S128x768_S_d0_1 : S128x768.ReducesTo [0, 1] S_

variable [Facts]

def fn {F : FTy → Type} [FloatOps F] (main_arg0 : FVec F S64x128x768 .f32) (main_arg1 : IVec S64x128 32) (main_arg2 : FVec F S64x1024x768 .f32) (main_arg3 : IVec S64x1024 32) (main_arg4 : FVec F S128x768 .f32) : IVec S_ 1 :=
  let main_v0 : FVec F S64x128x768 .f32 := Host.absf main_arg0
  let main_cst : FVec F S_ .f32 := constant S_ .f32 0x7F800000#32
  let main_v1 : FVec F S64x128x768 .f32 := broadcastInDim S64x128x768 ![] bcast_S_S64x128x768 main_cst
  let main_v2 : IVec S64x128x768 1 := cmpf .olt main_v0 main_v1
  let main_c : IVec S_ 1 := constantI S_ 1 1#1
  let main_v3 : IVec S_ 1 := (fun x v => Host.reduce IntOp.andi x v reducesTo_S64x128x768_S_d0_1_2 h_S_) main_v2 main_c
  let main_v4 : FVec F S64x1024x768 .f32 := Host.absf main_arg2
  let main_cst_0 : FVec F S_ .f32 := constant S_ .f32 0x7F800000#32
  let main_v5 : FVec F S64x1024x768 .f32 := broadcastInDim S64x1024x768 ![] bcast_S_S64x1024x768 main_cst_0
  let main_v6 : IVec S64x1024x768 1 := cmpf .olt main_v4 main_v5
  let main_c_1 : IVec S_ 1 := constantI S_ 1 1#1
  let main_v7 : IVec S_ 1 := (fun x v => Host.reduce IntOp.andi x v reducesTo_S64x1024x768_S_d0_1_2 h_S_) main_v6 main_c_1
  let main_v8 : IVec S_ 1 := andi main_v3 main_v7
  let main_v9 : FVec F S128x768 .f32 := Host.absf main_arg4
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  main_v13
-- ==== Kernel.lean ====
abbrev S64x128x768 : Shape := ⟨3, ![64, 128, 768]⟩
abbrev S64x128 : Shape := ⟨2, ![64, 128]⟩
abbrev S64x1024x768 : Shape := ⟨3, ![64, 1024, 768]⟩
abbrev S64x1024 : Shape := ⟨2, ![64, 1024]⟩
abbrev S128x768 : Shape := ⟨2, ![128, 768]⟩
abbrev S768x128 : Shape := ⟨2, ![768, 128]⟩
abbrev S64x1 : Shape := ⟨2, ![64, 1]⟩
abbrev S8x128x768 : Shape := ⟨3, ![8, 128, 768]⟩
abbrev S8x128 : Shape := ⟨2, ![8, 128]⟩
abbrev S8x512x768 : Shape := ⟨3, ![8, 512, 768]⟩
abbrev S8x512 : Shape := ⟨2, ![8, 512]⟩
abbrev S8x1 : Shape := ⟨2, ![8, 1]⟩
abbrev S8x128x128 : Shape := ⟨3, ![8, 128, 128]⟩
abbrev S1024x1 : Shape := ⟨2, ![1024, 1]⟩
abbrev S1024x768 : Shape := ⟨2, ![1024, 768]⟩
abbrev S1024x128 : Shape := ⟨2, ![1024, 128]⟩
abbrev S1024 : Shape := ⟨1, ![1024]⟩
abbrev S4096x1 : Shape := ⟨2, ![4096, 1]⟩
abbrev S4096x768 : Shape := ⟨2, ![4096, 768]⟩
abbrev S4096x128 : Shape := ⟨2, ![4096, 128]⟩
abbrev S4096 : Shape := ⟨1, ![4096]⟩
abbrev S8x512x128 : Shape := ⟨3, ![8, 512, 128]⟩
abbrev S8x128x512 : Shape := ⟨3, ![8, 128, 512]⟩
abbrev S8 : Shape := ⟨1, ![8]⟩
abbrev S64 : Shape := ⟨1, ![64]⟩

abbrev nBuf : Space → Nat
  | .hbm => 9
  | .vmem => 13
  | .smem => 0
  | _ => 0

abbrev bufTy : (tb : Table) → Fin (tcTables nBuf tb) → BufTy
  | .hbm, ⟨0, _⟩ => ⟨S64x128x768, .f32⟩
  | .hbm, ⟨1, _⟩ => ⟨S64x128, .i32⟩
  | .hbm, ⟨2, _⟩ => ⟨S64x1024x768, .f32⟩
  | .hbm, ⟨3, _⟩ => ⟨S64x1024, .i32⟩
  | .hbm, ⟨4, _⟩ => ⟨S128x768, .f32⟩
  | .hbm, ⟨5, _⟩ => ⟨S768x128, .f32⟩
  | .hbm, ⟨6, _⟩ => ⟨S768x128, .bf16⟩
  | .hbm, ⟨7, _⟩ => ⟨S64x1, .f32⟩
  | .hbm, ⟨8, _⟩ => ⟨S64, .f32⟩
  | .local _ .vmem, ⟨0, _⟩ => ⟨S8x128x768, .f32⟩
  | .local _ .vmem, ⟨1, _⟩ => ⟨S8x128x768, .f32⟩
  | .local _ .vmem, ⟨2, _⟩ => ⟨S8x128, .i32⟩
  | .local _ .vmem, ⟨3, _⟩ => ⟨S8x128, .i32⟩
  | .local _ .vmem, ⟨4, _⟩ => ⟨S8x512x768, .f32⟩
  | .local _ .vmem, ⟨5, _⟩ => ⟨S8x512x768, .f32⟩
  | .local _ .vmem, ⟨6, _⟩ => ⟨S8x512, .i32⟩
  | .local _ .vmem, ⟨7, _⟩ => ⟨S8x512, .i32⟩
  | .local _ .vmem, ⟨8, _⟩ => ⟨S768x128, .bf16⟩
  | .local _ .vmem, ⟨9, _⟩ => ⟨S8x1, .f32⟩
  | .local _ .vmem, ⟨10, _⟩ => ⟨S8x1, .f32⟩
  | .local _ .vmem, ⟨11, _⟩ => ⟨S8x128, .f32⟩
  | .local _ .vmem, ⟨12, _⟩ => ⟨S8x128x128, .bf16⟩
  | _, _ => ⟨S64x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v32 : BitVec 1 := Scalar.cmpi .eq arg1 c1_i32
  let v33 : BitVec 32 := Scalar.extui v32
  let c0_i32_18 : BitVec 32 := 0#32
  let v34 : BitVec 1 := Scalar.cmpi .ne v33 c0_i32_18
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S768x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S128x768_S768x128_1_0 : S128x768.Transposes [1, 0] S768x128
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S1024x1 : S8x128.ShapeCasts S1024x1
  inb_S8x128x768_S8x128x768_0_0_0 : ∀ a, (![0, 0, 0] : Fin 3 → Nat) a + S8x128x768.size a ≤ S8x128x768.size a
  h_S8x128x768 : 0 < S8x128x768.numel
  shapeCasts_S8x128x768_S1024x768 : S8x128x768.ShapeCasts S1024x768
  broadcasts_S1024x1_S1024x768 : S1024x1.Broadcasts S1024x768
  reduces_S1024x128_S1024 : S1024x128.Reduces [1] S1024
  shapeCasts_S1024_S1024x1 : S1024.ShapeCasts S1024x1
  broadcasts_S1024x1_S1024x128 : S1024x1.Broadcasts S1024x128
  shapeCasts_S1024x128_S8x128x128 : S1024x128.ShapeCasts S8x128x128
  inb_S8x128x128_S8x128x128_0_0_0 : ∀ a, (![0, 0, 0] : Fin 3 → Nat) a + S8x128x128.size a ≤ S8x128x128.size a
  h_S8x128x128 : 0 < S8x128x128.numel
  shapeCasts_S8x128x128_S8x128x128 : S8x128x128.ShapeCasts S8x128x128
  packedbf16_S8x128x128_S8x128x128_0_0_0 : (Rect.unit (s := S8x128x128) ![0, 0, 0] S8x128x128.size inb_S8x128x128_S8x128x128_0_0_0).PackedRows (EltTy.packing .bf16)
  inb_S8x512_S8x512_0_0 : ∀ a, (![0, 0] : Fin 2 → Nat) a + S8x512.size a ≤ S8x512.size a
  h_S8x512 : 0 < S8x512.numel
  shapeCasts_S8x512_S4096x1 : S8x512.ShapeCasts S4096x1
  inb_S8x512x768_S8x512x768_0_0_0 : ∀ a, (![0, 0, 0] : Fin 3 → Nat) a + S8x512x768.size a ≤ S8x512x768.size a
  h_S8x512x768 : 0 < S8x512x768.numel
  shapeCasts_S8x512x768_S4096x768 : S8x512x768.ShapeCasts S4096x768
  broadcasts_S4096x1_S4096x768 : S4096x1.Broadcasts S4096x768
  reduces_S4096x128_S4096 : S4096x128.Reduces [1] S4096
  shapeCasts_S4096_S4096x1 : S4096.ShapeCasts S4096x1
  broadcasts_S4096x1_S4096x128 : S4096x1.Broadcasts S4096x128
  shapeCasts_S4096x128_S8x512x128 : S4096x128.ShapeCasts S8x512x128
  reduces_S8x128x512_S8x128 : S8x128x512.Reduces [2] S8x128
  reduces_S8x128_S8 : S8x128.Reduces [1] S8
  shapeCasts_S8_S8x1 : S8.ShapeCasts S8x1
  inb_S8x1_S8x1_0_0 : ∀ a, (![0, 0] : Fin 2 → Nat) a + S8x1.size a ≤ S8x1.size a
  h_S8x1 : 0 < S8x1.numel
  shapeCasts_S64x1_S64 : S64x1.ShapeCasts S64
  dot_S1024x768_S768x128_S1024x128_1_0_0_1_n_n_wf : DotDims.WF S1024x768 S768x128 S1024x128 [1] [0] [0] [1] [] []
  dot_S4096x768_S768x128_S4096x128_1_0_0_1_n_n_wf : DotDims.WF S4096x768 S768x128 S4096x128 [1] [0] [0] [1] [] []
  dot_S8x128x128_S8x512x128_S8x128x512_2_2_1_1_0_0_wf : DotDims.WF S8x128x128 S8x512x128 S8x128x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x768.size a ≤ S64x128x768.size a
  hwx0_0 : ∀ i : grid0.Coords, EltTy.bits .f32 = 32 ∨ (Rect.block (s := S64x128x768) S8x128x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x128.size a
  hwx0_1 : ∀ i : grid0.Coords, EltTy.bits .i32 = 32 ∨ (Rect.block (s := S64x128) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x768.size a ≤ S64x1024x768.size a
  hwx0_2 : ∀ i : grid0.Coords, EltTy.bits .f32 = 32 ∨ (Rect.block (s := S64x1024x768) S8x512x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S64x1024.size a
  hwx0_3 : ∀ i : grid0.Coords, EltTy.bits .i32 = 32 ∨ (Rect.block (s := S64x1024) S8x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x128.size a ≤ S768x128.size a
  hwx0_4 : ∀ i : grid0.Coords, EltTy.bits .bf16 = 32 ∨ (Rect.block (s := S768x128) S768x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S64x1.size a
  hwx0_5 : ∀ i : grid0.Coords, EltTy.bits .f32 = 32 ∨ (Rect.block (s := S64x1) S8x1.size (cc0_transform_5 i) (hinb0_5 i)).WholeWords (EltTy.packing .f32)

variable [Facts₀]

def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf
def dot_S4096x768_S768x128_S4096x128_1_0_0_1_n_n : DotDims S4096x768 S768x128 S4096x128 where
  lhsContracting := [1]
  rhsContracting := [0]
  lhsNonContracting := [0]
  rhsNonContracting := [1]
  lhsBatch := []
  rhsBatch := []
  wf := dot_S4096x768_S768x128_S4096x128_1_0_0_1_n_n_wf
def dot_S8x128x128_S8x512x128_S8x128x512_2_2_1_1_0_0 : DotDims S8x128x128 S8x512x128 S8x128x512 where
  lhsContracting := [2]
  rhsContracting := [2]
  lhsNonContracting := [1]
  rhsNonContracting := [1]
  lhsBatch := [0]
  rhsBatch := [0]
  wf := dot_S8x128x128_S8x512x128_S8x128x512_2_2_1_1_0_0_wf

abbrev win0_0 : Pipeline.Window sig grid0 :=
  Pipeline.Window.ofSpec (Memref.whole main_arg0) S8x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S768x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S64x128x768 : Shape := ⟨3, ![64, 128, 768]⟩
abbrev S64x128 : Shape := ⟨2, ![64, 128]⟩
abbrev S64x1024x768 : Shape := ⟨3, ![64, 1024, 768]⟩
abbrev S64x1024 : Shape := ⟨2, ![64, 1024]⟩
abbrev S128x768 : Shape := ⟨2, ![128, 768]⟩
abbrev S64x128x1 : Shape := ⟨3, ![64, 128, 1]⟩
abbrev S64x128x128 : Shape := ⟨3, ![64, 128, 128]⟩
abbrev S_ : Shape := ⟨0, ![]⟩
abbrev S64x1024x1 : Shape := ⟨3, ![64, 1024, 1]⟩
abbrev S64x1024x128 : Shape := ⟨3, ![64, 1024, 128]⟩
abbrev S64x128x1024 : Shape := ⟨3, ![64, 128, 1024]⟩
abbrev S64 : Shape := ⟨1, ![64]⟩

abbrev nBuf : Space → Nat
  | .hbm => 40
  | .vmem => 0
  | .smem => 0
  | _ => 0

abbrev bufTy : (tb : Table) → Fin (tcTables nBuf tb) → BufTy
  | .hbm, ⟨0, _⟩ => ⟨S64x128x768, .f32⟩
  | .hbm, ⟨1, _⟩ => ⟨S64x128, .i32⟩
  | .hbm, ⟨2, _⟩ => ⟨S64x1024x768, .f32⟩
  | .hbm, ⟨3, _⟩ => ⟨S64x1024, .i32⟩
  | .hbm, ⟨4, _⟩ => ⟨S128x768, .f32⟩
  | .hbm, ⟨5, _⟩ => ⟨S64x128x1, .i32⟩
  | .hbm, ⟨6, _⟩ => ⟨S64x128x1, .f32⟩
  | .hbm, ⟨7, _⟩ => ⟨S64x128x768, .f32⟩
  | .hbm, ⟨8, _⟩ => ⟨S64x128x768, .f32⟩
  | .hbm, ⟨9, _⟩ => ⟨S64x128x128, .f32⟩
  | .hbm, ⟨10, _⟩ => ⟨S64x128x128, .f32⟩
  | .hbm, ⟨11, _⟩ => ⟨S_, .f32⟩
  | .hbm, ⟨12, _⟩ => ⟨S64x128, .f32⟩
  | .hbm, ⟨13, _⟩ => ⟨S64x128x1, .f32⟩
  | .hbm, ⟨14, _⟩ => ⟨S64x128x1, .f32⟩
  | .hbm, ⟨15, _⟩ => ⟨S_, .f32⟩
  | .hbm, ⟨16, _⟩ => ⟨S64x128x1, .f32⟩
  | .hbm, ⟨17, _⟩ => ⟨S64x128x1, .f32⟩
  | .hbm, ⟨18, _⟩ => ⟨S64x128x128, .f32⟩
  | .hbm, ⟨19, _⟩ => ⟨S64x128x128, .f32⟩
  | .hbm, ⟨20, _⟩ => ⟨S64x1024x1, .i32⟩
  | .hbm, ⟨21, _⟩ => ⟨S64x1024x1, .f32⟩
  | .hbm, ⟨22, _⟩ => ⟨S64x1024x768, .f32⟩
  | .hbm, ⟨23, _⟩ => ⟨S64x1024x768, .f32⟩
  | .hbm, ⟨24, _⟩ => ⟨S64x1024x128, .f32⟩
  | .hbm, ⟨25, _⟩ => ⟨S64x1024x128, .f32⟩
  | .hbm, ⟨26, _⟩ => ⟨S_, .f32⟩
  | .hbm, ⟨27, _⟩ => ⟨S64x1024, .f32⟩
  | .hbm, ⟨28, _⟩ => ⟨S64x1024x1, .f32⟩
  | .hbm, ⟨29, _⟩ => ⟨S64x1024x1, .f32⟩
  | .hbm, ⟨30, _⟩ => ⟨S_, .f32⟩
  | .hbm, ⟨31, _⟩ => ⟨S64x1024x1, .f32⟩
  | .hbm, ⟨32, _⟩ => ⟨S64x1024x1, .f32⟩
  | .hbm, ⟨33, _⟩ => ⟨S64x1024x128, .f32⟩
  | .hbm, ⟨34, _⟩ => ⟨S64x1024x128, .f32⟩
  | .hbm, ⟨35, _⟩ => ⟨S64x128x1024, .f32⟩
  | .hbm, ⟨36, _⟩ => ⟨S_, .f32⟩
  | .hbm, ⟨37, _⟩ => ⟨S64x128, .f32⟩
  | .hbm, ⟨38, _⟩ => ⟨S_, .f32⟩
  | .hbm, ⟨39, _⟩ => ⟨S64, .f32⟩
  | _, _ => ⟨S64x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_call1_v2 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩

abbrev nD : Nat := 1
abbrev τ : Topo := Topo.v7x

variable {F : FTy → Type} [FloatOps F]

class Facts₀ : Prop where
  bcast_S64x128_S64x128x1_0_1 : S64x128.BroadcastsInDim S64x128x1 (![0, 1] : Fin 2 → Fin S64x128x1.rank)
  bcast_S64x128x1_S64x128x768_0_1_2 : S64x128x1.BroadcastsInDim S64x128x768 (![0, 1, 2] : Fin 3 → Fin S64x128x768.rank)
  reducesTo_S64x128x128_S64x128_d2 : S64x128x128.ReducesTo [2] S64x128
  h_S_ : 0 < S_.numel
  bcast_S_S64x128x1 : S_.BroadcastsInDim S64x128x1 (![] : Fin 0 → Fin S64x128x1.rank)
  bcast_S64x128x1_S64x128x128_0_1_2 : S64x128x1.BroadcastsInDim S64x128x128 (![0, 1, 2] : Fin 3 → Fin S64x128x128.rank)
  bcast_S64x1024_S64x1024x1_0_1 : S64x1024.BroadcastsInDim S64x1024x1 (![0, 1] : Fin 2 → Fin S64x1024x1.rank)
  bcast_S64x1024x1_S64x1024x768_0_1_2 : S64x1024x1.BroadcastsInDim S64x1024x768 (![0, 1, 2] : Fin 3 → Fin S64x1024x768.rank)
  reducesTo_S64x1024x128_S64x1024_d2 : S64x1024x128.ReducesTo [2] S64x1024
  bcast_S_S64x1024x1 : S_.BroadcastsInDim S64x1024x1 (![] : Fin 0 → Fin S64x1024x1.rank)
  bcast_S64x1024x1_S64x1024x128_0_1_2 : S64x1024x1.BroadcastsInDim S64x1024x128 (![0, 1, 2] : Fin 3 → Fin S64x1024x128.rank)
  reducesTo_S64x128x1024_S64x128_d2 : S64x128x1024.ReducesTo [2] S64x128
  reducesTo_S64x128_S64_d1 : S64x128.ReducesTo [1] S64
  dot_S64x128x768_S128x768_S64x128x128_2_1_01_0_n_n_wf : DotDims.WF S64x128x768 S128x768 S64x128x128 [2] [1] [0, 1] [0] [] []
  dot_S64x1024x768_S128x768_S64x1024x128_2_1_01_0_n_n_wf : DotDims.WF S64x1024x768 S128x768 S64x1024x128 [2] [1] [0, 1] [0] [] []
  dot_S64x128x128_S64x1024x128_S64x128x1024_2_2_1_1_0_0_wf : DotDims.WF S64x128x128 S64x1024x128 S64x128x1024 [2] [2] [1] [1] [0] [0]

variable [Facts₀]

def dot_S64x128x768_S128x768_S64x128x128_2_1_01_0_n_n : DotDims S64x128x768 S128x768 S64x128x128 where
  lhsContracting := [2]
  rhsContracting := [1]
  lhsNonContracting := [0, 1]
  rhsNonContracting := [0]
  lhsBatch := []
  rhsBatch := []
  wf := dot_S64x128x768_S128x768_S64x128x128_2_1_01_0_n_n_wf
def dot_S64x1024x768_S128x768_S64x1024x128_2_1_01_0_n_n : DotDims S64x1024x768 S128x768 S64x1024x128 where
  lhsContracting := [2]
  rhsContracting := [1]
  lhsNonContracting := [0, 1]
  rhsNonContracting := [0]
  lhsBatch := []
  rhsBatch := []
  wf := dot_S64x1024x768_S128x768_S64x1024x128_2_1_01_0_n_n_wf
def dot_S64x128x128_S64x1024x128_S64x128x1024_2_2_1_1_0_0 : DotDims S64x128x128 S64x1024x128 S64x128x1024 where
  lhsContracting := [2]
  rhsContracting := [2]
  lhsNonContracting := [1]
  rhsNonContracting := [1]
  lhsBatch := [0]
  rhsBatch := [0]
  wf := dot_S64x128x128_S64x1024x128_S64x128x1024_2_2_1_1_0_0_wf

class Facts : Prop extends Facts₀ where

variable [Facts]
-- ==== Proof.Spec.lean ====
/-
  The late-interaction score as one function of the five argument arrays, on the extended reals.

  A token (a row of 768 hidden values) is weighted by its mask word, projected onto 128 coordinates by the weight
  matrix, and scaled to unit length, the length guarded below by a small constant ε.  The similarity of a query token and
  a document token of the same batch row is the inner product of their unit vectors; a query token's best match is the
  greatest similarity over the 1024 document tokens; a batch row's score is the sum of the best matches of its 128 query
  tokens.

  Two spellings of the unit scaling meet here: the product with the reciprocal square root of max(|p|², ε²), and the
  quotient by max(|p|, ε).  They are the same function wherever the squared length is not negative, for EVERY extended
  real coordinate (at an infinite squared length both are 0): the square root is monotone, so it commutes with the maximum,
  and √(ε²) = ε.  A maximum over 1024 tokens is the greater of the maxima over its two halves.
-/
import Idealize.ShloMosaic.PureOps.Ideal
import Idealize.ShloMosaic.Lib.ValueIdx

noncomputable section

open scoped BigOperators

namespace Cert.MaxSim

open Idealize.ShloMosaic Idealize.ShloMosaic.ValueIdx

/-! ## The guard -/

/-- ε as a real: the binary value of the single-precision word nearest 10⁻¹², 2305843 · 2⁻⁶¹. -/
def epsR : ℝ := 2305843 / 2305843009213693952

/-- ε as an extended real. -/
def eps : EReal := (epsR : EReal)

/-- ε², 2305843² · 2⁻¹²²: the guard under the reciprocal square root. -/
def epsSq : EReal := ((5316911940649 / 5316911983139663491615228241121378304 : ℝ) : EReal)

theorem epsR_pos : 0 < epsR := by unfold epsR; norm_num

theorem epsR_sq : epsR * epsR = (5316911940649 / 5316911983139663491615228241121378304 : ℝ) := by
  unfold epsR; norm_num

/-- The single-precision word 0x2B8CBCCC denotes ε. -/
theorem ofBits_eps : Ideal.ofBits .f32 0x2B8CBCCC#32 = eps := by
  simp [Ideal.ofBits, Ideal.ieee, eps, epsR, -EReal.coe_mul]; norm_num

/-- The all-ones-exponent negative word denotes −∞. -/
theorem ofBits_negInf : Ideal.ofBits .f32 0xFF800000#32 = (⊥ : EReal) := by
  simp [Ideal.ofBits, Ideal.ieee]

/-! ## Unit scaling -/

/-- The coercion of the reals into the extended reals is monotone, so it commutes with the maximum. -/
theorem coe_max (a b : ℝ) : ((max a b : ℝ) : EReal) = max (a : EReal) (b : EReal) :=
  (EReal.coe_strictMono.monotone).map_max

/-- A coordinate `p` of a vector of squared length `ss`, scaled by the reciprocal square root of max(ss, ε²). -/
def unit (p ss : EReal) : EReal := p * Ideal.rsqrt (max ss epsSq)

/-- The same coordinate divided by max(√ss, ε): equal to `unit p ss` whenever `ss` is not negative. -/
theorem unit_eq_div (p ss : EReal) (h : 0 ≤ ss) : unit p ss = Ideal.div p (max (Ideal.sqrt ss) eps) := by
  unfold unit
  induction ss using EReal.rec with
  | bot => exact absurd h (by simp)
  | top =>
    have e1 : max (⊤ : EReal) epsSq = ⊤ := max_eq_left le_top
    have e2 : max (Ideal.sqrt ⊤) eps = ⊤ := by rw [Ideal.sqrt_top]; exact max_eq_left le_top
    rw [e1, e2]
    show p * (0 : EReal) = Ideal.div p ⊤
    unfold Ideal.div
    rw [if_neg (by simp), EReal.inv_top]
  | coe r =>
    have hr : 0 ≤ r := EReal.coe_nonneg.mp h
    have hmpos : 0 < max r (epsR * epsR) := lt_of_lt_of_le (mul_pos epsR_pos epsR_pos) (le_max_right _ _)
    have e1 : max (r : EReal) epsSq = ((max r (epsR * epsR) : ℝ) : EReal) := by
      unfold epsSq; rw [← epsR_sq, coe_max]
    have hs : Real.sqrt (max r (epsR * epsR)) = max (Real.sqrt r) epsR := by
      rw [(show Monotone Real.sqrt from fun _ _ h => Real.sqrt_le_sqrt h).map_max, Real.sqrt_mul_self epsR_pos.le]
    have hy : max (Real.sqrt r) epsR ≠ 0 := (lt_of_lt_of_le epsR_pos (le_max_right _ _)).ne'
    have e2 : max (Ideal.sqrt (r : EReal)) eps = ((max (Real.sqrt r) epsR : ℝ) : EReal) := by
      rw [Ideal.sqrt_coe, if_neg (not_lt.mpr hr)]; unfold eps; rw [coe_max]
    rw [e1, e2, Ideal.rsqrt_coe, if_neg (not_lt.mpr hmpos.le), if_neg hmpos.ne', hs, Ideal.div_coe hy, one_div]

/-- A square is never negative, at the infinities either. -/
theorem mul_self_nonneg' (a : EReal) : 0 ≤ a * a := by
  induction a using EReal.rec with
  | bot => simp
  | top => simp
  | coe r => rw [← EReal.coe_mul]; exact EReal.coe_nonneg.mpr (mul_self_nonneg r)

/-! ## A maximum over two tiles -/

/-- The greatest of 1024 values, from −∞, is the greater of the greatest of the first 512 — itself taken against −∞ —
    and the greatest of the last 512. -/
theorem fold_max_two_tiles (f : Fin 1024 → EReal) :
    (Finset.univ : Finset (Fin 1024)).fold max ⊥ f
      = max (max ⊥ ((Finset.univ : Finset (Fin 512)).fold max ⊥ fun t => f ⟨t.val, by omega⟩))
          ((Finset.univ : Finset (Fin 512)).fold max ⊥ fun t => f ⟨512 + t.val, by omega⟩) := by
  apply le_antisymm
  · refine (Finset.fold_max_le _).mpr ⟨bot_le, fun x _ => ?_⟩
    by_cases hx : x.val < 512
    · refine le_trans ?_ (le_max_left _ _)
      refine le_trans ?_ (le_max_right _ _)
      exact (Finset.le_fold_max _).mpr (Or.inr ⟨⟨x.val, hx⟩, Finset.mem_univ _, le_of_eq rfl⟩)
    · refine le_trans ?_ (le_max_right _ _)
      have hx2 : x.val - 512 < 512 := by omega
      refine (Finset.le_fold_max _).mpr (Or.inr ⟨⟨x.val - 512, hx2⟩, Finset.mem_univ _, le_of_eq ?_⟩)
      exact congrArg f (Fin.ext (by show x.val = 512 + (x.val - 512); omega))
  · refine max_le (max_le bot_le ?_) ?_
    · exact (Finset.fold_max_le _).mpr ⟨bot_le, fun t _ => (Finset.le_fold_max _).mpr (Or.inr ⟨_, Finset.mem_univ _, le_rfl⟩)⟩
    · exact (Finset.fold_max_le _).mpr ⟨bot_le, fun t _ => (Finset.le_fold_max _).mpr (Or.inr ⟨_, Finset.mem_univ _, le_rfl⟩)⟩

/-! ## The score -/

/-- A mask word as a weight: the signed integer it encodes. -/
def wt (w : BitVec 32) : EReal := ((w.toInt : ℝ) : EReal)

/-- Token `s` of batch row `b`, weighted by its mask word and projected onto coordinate `d`:
    Σ_h (X[b,s,h] · mask[b,s]) · w[d,h]. -/
def tokProj {B n : ℕ} (X : (⟨3, ![B, n, 768]⟩ : Shape).Idx → EReal) (M : (⟨2, ![B, n]⟩ : Shape).Idx → BitVec 32)
    (w : Fin 128 → Fin 768 → EReal) (b : Fin B) (s : Fin n) (d : Fin 128) : EReal :=
  ∑ h : Fin 768, X (ix3 b s h) * wt (M (ix2 b s)) * w d h

/-- The squared length of the projected token. -/
def tokSq {B n : ℕ} (X : (⟨3, ![B, n, 768]⟩ : Shape).Idx → EReal) (M : (⟨2, ![B, n]⟩ : Shape).Idx → BitVec 32)
    (w : Fin 128 → Fin 768 → EReal) (b : Fin B) (s : Fin n) : EReal :=
  ∑ d : Fin 128, tokProj X M w b s d * tokProj X M w b s d

/-- The projected token scaled to unit length, coordinate `d`. -/
def tokUnit {B n : ℕ} (X : (⟨3, ![B, n, 768]⟩ : Shape).Idx → EReal) (M : (⟨2, ![B, n]⟩ : Shape).Idx → BitVec 32)
    (w : Fin 128 → Fin 768 → EReal) (b : Fin B) (s : Fin n) (d : Fin 128) : EReal :=
  unit (tokProj X M w b s d) (tokSq X M w b s)

theorem tokSq_nonneg {B n : ℕ} (X : (⟨3, ![B, n, 768]⟩ : Shape).Idx → EReal) (M : (⟨2, ![B, n]⟩ : Shape).Idx → BitVec 32)
    (w : Fin 128 → Fin 768 → EReal) (b : Fin B) (s : Fin n) : 0 ≤ tokSq X M w b s :=
  Finset.sum_nonneg fun d _ => mul_self_nonneg' _

/-- The unit token depends only on the token's own row of hidden values and its own mask word: two arrays that agree
    on them — a block and the array it was cut from — give the same unit token. -/
theorem tokUnit_congr {B n B' n' : ℕ} (X : (⟨3, ![B, n, 768]⟩ : Shape).Idx → EReal) (M : (⟨2, ![B, n]⟩ : Shape).Idx → BitVec 32)
    (X' : (⟨3, ![B', n', 768]⟩ : Shape).Idx → EReal) (M' : (⟨2, ![B', n']⟩ : Shape).Idx → BitVec 32)
    (w : Fin 128 → Fin 768 → EReal) (b : Fin B) (s : Fin n) (b' : Fin B') (s' : Fin n')
    (hX : ∀ h : Fin 768, X (ix3 b s h) = X' (ix3 b' s' h)) (hM : M (ix2 b s) = M' (ix2 b' s')) (d : Fin 128) :
    tokUnit X M w b s d = tokUnit X' M' w b' s' d := by
  have hp : ∀ d, tokProj X M w b s d = tokProj X' M' w b' s' d := fun d => by
    unfold tokProj
    exact Finset.sum_congr rfl fun h _ => by rw [hX h, hM]
  unfold tokUnit tokSq
  rw [hp d]
  exact congrArg _ (Finset.sum_congr rfl fun d _ => by rw [hp d])

/-- The score of batch row `r`: Σ over its 128 query tokens of the greatest, over the 1024 document tokens, of the inner
    product of the two unit tokens. -/
def score (Q : (⟨3, ![64, 128, 768]⟩ : Shape).Idx → EReal) (QM : (⟨2, ![64, 128]⟩ : Shape).Idx → BitVec 32)
    (D : (⟨3, ![64, 1024, 768]⟩ : Shape).Idx → EReal) (DM : (⟨2, ![64, 1024]⟩ : Shape).Idx → BitVec 32)
    (W : (⟨2, ![128, 768]⟩ : Shape).Idx → EReal) (r : Fin 64) : EReal :=
  ∑ s : Fin 128, (Finset.univ : Finset (Fin 1024)).fold max ⊥ fun t =>
    ∑ d : Fin 128, tokUnit Q QM (fun d h => W (ix2 d h)) r s d * tokUnit D DM (fun d h => W (ix2 d h)) r t d

/-- The result array: entry `r` is the score of batch row `r`. -/
def G (Q : (⟨3, ![64, 128, 768]⟩ : Shape).Idx → EReal) (QM : (⟨2, ![64, 128]⟩ : Shape).Idx → BitVec 32)
    (D : (⟨3, ![64, 1024, 768]⟩ : Shape).Idx → EReal) (DM : (⟨2, ![64, 1024]⟩ : Shape).Idx → BitVec 32)
    (W : (⟨2, ![128, 768]⟩ : Shape).Idx → EReal) : (⟨1, ![64]⟩ : Shape).Idx → EReal :=
  fun i => score Q QM D DM W ⟨(i 0).val, (i 0).isLt⟩

end Cert.MaxSim

end
-- ==== Proof.RefIsScore.lean ====
/-
  The reference program, read one stage at a time at an index, is the late-interaction score of the specification.

  Each stage below says what one operation's value is at a coordinate: the masked hidden value, its projection onto a
  coordinate, the squared length of the projected token, the unit token, the similarity of a query token and a document
  token, a query token's greatest similarity over the document tokens, and the sum of these over the query tokens.
-/
import proofs.«142473_j77850577207387_2_alg».proof.Proof.Gen.ReferenceIdeal.Read
import proofs.«142473_j77850577207387_2_alg».proof.Proof.Spec
import Idealize.ShloMosaic.Lib.ValueIdx
import Idealize.ShloMosaic.PureOps.Ideal.Laws

noncomputable section

open scoped BigOperators

namespace Cert.MaxSim.Ref

open Cert.ReferenceIdeal Cert.ReferenceIdeal.Gen Cert.ReferenceIdeal.Read Idealize.ShloMosaic Idealize.ShloMosaic.ValueIdx Cert.MaxSim

/-- The weight matrix as a function of its two coordinates. -/
abbrev wmat (x4 : (⟨S128x768, .f32⟩ : BufTy).Contents (Elt Ideal)) : Fin 128 → Fin 768 → EReal := fun d h => x4 (ix2 d h)

/-! ## The query side -/

/-- A query token's hidden value times its mask word read as a signed integer: X[b,s,h] · mask[b,s]. -/
theorem q_masked (x0 : (⟨S64x128x768, .f32⟩ : BufTy).Contents (Elt Ideal)) (x1 : (⟨S64x128, .i32⟩ : BufTy).Contents (Elt Ideal))
    (b : Fin 64) (s : Fin 128) (h : Fin 768) :
    val_main_v3 (F := Ideal) x0 x1 (ix3 b s h) = x0 (ix3 b s h) * wt (x1 (ix2 b s)) := by
  rw [val_main_v3_apply, val_main_v2_apply, val_main_v1_apply, val_main_v0_apply]
  have e : idx_main_v0 (idx_main_v2 (ix3 b s h)) = ix2 b s :=
    funext fun a => by match a with | ⟨0, _⟩ => rfl | ⟨1, _⟩ => rfl
  rw [e]
  rfl

/-- The projection of the masked query token onto coordinate d: Σ_h (X[b,s,h] · mask[b,s]) · W[d,h]. -/
theorem q_proj (x0 : (⟨S64x128x768, .f32⟩ : BufTy).Contents (Elt Ideal)) (x1 : (⟨S64x128, .i32⟩ : BufTy).Contents (Elt Ideal))
    (x4 : (⟨S128x768, .f32⟩ : BufTy).Contents (Elt Ideal)) (b : Fin 64) (s : Fin 128) (d : Fin 128) :
    val_main_v4 (F := Ideal) x0 x1 x4 (ix3 b s d) = tokProj x0 x1 (wmat x4) b s d := by
  rw [val_main_v4_apply]
  unfold tokProj
  refine Finset.sum_congr rfl fun h _ => ?_
  have el : lidx_main_v4 (ix3 b s d) h = ix3 b s h :=
    funext fun a => by match a with | ⟨0, _⟩ => rfl | ⟨1, _⟩ => rfl | ⟨2, _⟩ => rfl
  have er : ridx_main_v4 (ix3 b s d) h = ix2 d h :=
    funext fun a => by match a with | ⟨0, _⟩ => rfl | ⟨1, _⟩ => rfl
  rw [el, er, q_masked]

/-- The squared length of the projected query token: from zero, Σ_d p[b,s,d]². -/
theorem q_sq (x0 : (⟨S64x128x768, .f32⟩ : BufTy).Contents (Elt Ideal)) (x1 : (⟨S64x128, .i32⟩ : BufTy).Contents (Elt Ideal))
    (x4 : (⟨S128x768, .f32⟩ : BufTy).Contents (Elt Ideal)) (b : Fin 64) (s : Fin 128) :
    val_main_call0_v1 (F := Ideal) x0 x1 x4 (ix2 b s) = tokSq x0 x1 (wmat x4) b s := by
  rw [val_main_call0_v1_apply, val_main_call0_cst_apply]
  have z : (FloatOps.ofBits .f32 0x00000000#32 : Ideal .f32) = 0 := Ideal.ofBits_zero_f32
  rw [z, zero_add]
  unfold tokSq
  refine Finset.sum_congr rfl fun d _ => ?_
  have e : idx_main_call0_v1 (ix2 b s) d = ix3 b s d :=
    funext fun a => by match a with | ⟨0, _⟩ => rfl | ⟨1, _⟩ => rfl | ⟨2, _⟩ => rfl
  rw [e, val_main_call0_v0_apply, q_proj]
  rfl

/-- The unit query token: p[b,s,d] divided by max(√|p[b,s]|², ε), which is the specification's unit scaling because a
    sum of squares is not negative. -/
theorem q_unit (x0 : (⟨S64x128x768, .f32⟩ : BufTy).Contents (Elt Ideal)) (x1 : (⟨S64x128, .i32⟩ : BufTy).Contents (Elt Ideal))
    (x4 : (⟨S128x768, .f32⟩ : BufTy).Contents (Elt Ideal)) (b : Fin 64) (s : Fin 128) (d : Fin 128) :
    val_main_v9 (F := Ideal) x0 x1 x4 (ix3 b s d) = tokUnit x0 x1 (wmat x4) b s d := by
  rw [val_main_v9_apply, val_main_v8_apply, val_main_v7_apply, val_main_v5_apply, val_main_call0_v2_apply,
    val_main_v6_apply, val_main_cst_apply, q_proj]
  have e : idx_main_call0_v2 (idx_main_v8 (ix3 b s d)) = ix2 b s :=
    funext fun a => by match a with | ⟨0, _⟩ => rfl | ⟨1, _⟩ => rfl
  rw [e, q_sq]
  unfold tokUnit
  rw [unit_eq_div _ _ (tokSq_nonneg x0 x1 (wmat x4) b s)]
  have he : (FloatOps.ofBits .f32 0x2B8CBCCC#32 : Ideal .f32) = eps := ofBits_eps
  rw [he]
  rfl

/-! ## The document side -/

/-- A document token's hidden value times its mask word read as a signed integer: D[b,t,h] · mask[b,t]. -/
theorem d_masked (x2 : (⟨S64x1024x768, .f32⟩ : BufTy).Contents (Elt Ideal)) (x3 : (⟨S64x1024, .i32⟩ : BufTy).Contents (Elt Ideal))
    (b : Fin 64) (t : Fin 1024) (h : Fin 768) :
    val_main_v13 (F := Ideal) x2 x3 (ix3 b t h) = x2 (ix3 b t h) * wt (x3 (ix2 b t)) := by
  rw [val_main_v13_apply, val_main_v12_apply, val_main_v11_apply, val_main_v10_apply]
  have e : idx_main_v10 (idx_main_v12 (ix3 b t h)) = ix2 b t :=
    funext fun a => by match a with | ⟨0, _⟩ => rfl | ⟨1, _⟩ => rfl
  rw [e]
  rfl

/-- The projection of the masked document token onto coordinate d: Σ_h (D[b,t,h] · mask[b,t]) · W[d,h]. -/
theorem d_proj (x2 : (⟨S64x1024x768, .f32⟩ : BufTy).Contents (Elt Ideal)) (x3 : (⟨S64x1024, .i32⟩ : BufTy).Contents (Elt Ideal))
    (x4 : (⟨S128x768, .f32⟩ : BufTy).Contents (Elt Ideal)) (b : Fin 64) (t : Fin 1024) (d : Fin 128) :
    val_main_v14 (F := Ideal) x2 x3 x4 (ix3 b t d) = tokProj x2 x3 (wmat x4) b t d := by
  rw [val_main_v14_apply]
  unfold tokProj
  refine Finset.sum_congr rfl fun h _ => ?_
  have el : lidx_main_v14 (ix3 b t d) h = ix3 b t h :=
    funext fun a => by match a with | ⟨0, _⟩ => rfl | ⟨1, _⟩ => rfl | ⟨2, _⟩ => rfl
  have er : ridx_main_v14 (ix3 b t d) h = ix2 d h :=
    funext fun a => by match a with | ⟨0, _⟩ => rfl | ⟨1, _⟩ => rfl
  rw [el, er, d_masked]

/-- The squared length of the projected document token: from zero, Σ_d p[b,t,d]². -/
theorem d_sq (x2 : (⟨S64x1024x768, .f32⟩ : BufTy).Contents (Elt Ideal)) (x3 : (⟨S64x1024, .i32⟩ : BufTy).Contents (Elt Ideal))
    (x4 : (⟨S128x768, .f32⟩ : BufTy).Contents (Elt Ideal)) (b : Fin 64) (t : Fin 1024) :
    val_main_call1_v1 (F := Ideal) x2 x3 x4 (ix2 b t) = tokSq x2 x3 (wmat x4) b t := by
  rw [val_main_call1_v1_apply, val_main_call1_cst_apply]
  have z : (FloatOps.ofBits .f32 0x00000000#32 : Ideal .f32) = 0 := Ideal.ofBits_zero_f32
  rw [z, zero_add]
  unfold tokSq
  refine Finset.sum_congr rfl fun d _ => ?_
  have e : idx_main_call1_v1 (ix2 b t) d = ix3 b t d :=
    funext fun a => by match a with | ⟨0, _⟩ => rfl | ⟨1, _⟩ => rfl | ⟨2, _⟩ => rfl
  rw [e, val_main_call1_v0_apply, d_proj]
  rfl

/-- The unit document token: p[b,t,d] divided by max(√|p[b,t]|², ε), again the specification's unit scaling. -/
theorem d_unit (x2 : (⟨S64x1024x768, .f32⟩ : BufTy).Contents (Elt Ideal)) (x3 : (⟨S64x1024, .i32⟩ : BufTy).Contents (Elt Ideal))
    (x4 : (⟨S128x768, .f32⟩ : BufTy).Contents (Elt Ideal)) (b : Fin 64) (t : Fin 1024) (d : Fin 128) :
    val_main_v19 (F := Ideal) x2 x3 x4 (ix3 b t d) = tokUnit x2 x3 (wmat x4) b t d := by
  rw [val_main_v19_apply, val_main_v18_apply, val_main_v17_apply, val_main_v15_apply, val_main_call1_v2_apply,
    val_main_v16_apply, val_main_cst_0_apply, d_proj]
  have e : idx_main_call1_v2 (idx_main_v18 (ix3 b t d)) = ix2 b t :=
    funext fun a => by match a with | ⟨0, _⟩ => rfl | ⟨1, _⟩ => rfl
  rw [e, d_sq]
  unfold tokUnit
  rw [unit_eq_div _ _ (tokSq_nonneg x2 x3 (wmat x4) b t)]
  have he : (FloatOps.ofBits .f32 0x2B8CBCCC#32 : Ideal .f32) = eps := ofBits_eps
  rw [he]
  rfl

/-! ## Similarity, best match, score -/

/-- The similarity of query token s and document token t of batch row b: the inner product of their unit tokens. -/
theorem sim_apply (x0 : (⟨S64x128x768, .f32⟩ : BufTy).Contents (Elt Ideal)) (x1 : (⟨S64x128, .i32⟩ : BufTy).Contents (Elt Ideal))
    (x2 : (⟨S64x1024x768, .f32⟩ : BufTy).Contents (Elt Ideal)) (x3 : (⟨S64x1024, .i32⟩ : BufTy).Contents (Elt Ideal))
    (x4 : (⟨S128x768, .f32⟩ : BufTy).Contents (Elt Ideal)) (b : Fin 64) (s : Fin 128) (t : Fin 1024) :
    val_main_v20 (F := Ideal) x0 x1 x2 x3 x4 (ix3 b s t)
      = ∑ d : Fin 128, tokUnit x0 x1 (wmat x4) b s d * tokUnit x2 x3 (wmat x4) b t d := by
  rw [val_main_v20_apply]
  refine Finset.sum_congr rfl fun d _ => ?_
  have el : lidx_main_v20 (ix3 b s t) d = ix3 b s d :=
    funext fun a => by match a with | ⟨0, _⟩ => rfl | ⟨1, _⟩ => rfl | ⟨2, _⟩ => rfl
  have er : ridx_main_v20 (ix3 b s t) d = ix3 b t d :=
    funext fun a => by match a with | ⟨0, _⟩ => rfl | ⟨1, _⟩ => rfl | ⟨2, _⟩ => rfl
  rw [el, er, q_unit, d_unit]

/-- The reduced index (b, s) with document token k put back on the last axis is (b, s, k). -/
theorem lift_last (hR : S64x128x1024.Reduces [2] S64x128) (b : Fin 64) (s : Fin 128) (k : Fin (S64x128x1024.size 2)) :
    hR.lift (ix2 b s) k = ix3 b s (⟨k.val, k.isLt⟩ : Fin 1024) := by
  funext c; apply Fin.ext
  match c with | ⟨0, _⟩ => rfl | ⟨1, _⟩ => rfl | ⟨2, _⟩ => rfl

/-- A query token's best match: from −∞, the greatest over the 1024 document tokens of the similarity. -/
theorem best_apply (x0 : (⟨S64x128x768, .f32⟩ : BufTy).Contents (Elt Ideal)) (x1 : (⟨S64x128, .i32⟩ : BufTy).Contents (Elt Ideal))
    (x2 : (⟨S64x1024x768, .f32⟩ : BufTy).Contents (Elt Ideal)) (x3 : (⟨S64x1024, .i32⟩ : BufTy).Contents (Elt Ideal))
    (x4 : (⟨S128x768, .f32⟩ : BufTy).Contents (Elt Ideal)) (b : Fin 64) (s : Fin 128) :
    val_main_v21 (F := Ideal) x0 x1 x2 x3 x4 (ix2 b s)
      = (Finset.univ : Finset (Fin 1024)).fold max ⊥ fun t =>
          ∑ d : Fin 128, tokUnit x0 x1 (wmat x4) b s d * tokUnit x2 x3 (wmat x4) b t d := by
  unfold val_main_v21
  have hR : S64x128x1024.Reduces [2] S64x128 := by decide
  rw [Host.reduce_eq_fold_single FloatOps.maximumf _ _ reducesTo_S64x128x1024_S64x128_d2 hR h_S_ (ix2 b s),
    val_main_cst_1_apply]
  have hb : (FloatOps.ofBits .f32 0xFF800000#32 : Ideal .f32) = (⊥ : EReal) := ofBits_negInf
  rw [hb]
  have hf : (val_main_v20 (F := Ideal) x0 x1 x2 x3 x4 ∘ hR.lift (ix2 b s))
      = fun t : Fin 1024 => ∑ d : Fin 128, tokUnit x0 x1 (wmat x4) b s d * tokUnit x2 x3 (wmat x4) b t d :=
    funext fun k => (congrArg (val_main_v20 (F := Ideal) x0 x1 x2 x3 x4) (lift_last hR b s k)).trans
      (sim_apply x0 x1 x2 x3 x4 b s ⟨k.val, k.isLt⟩)
  exact congrArg (fun f => Finset.fold max (⊥ : EReal) f (Finset.univ : Finset (Fin 1024))) hf

/-- The reference program's result is the specification's score array: entry r is, from zero, the sum over the 128
    query tokens of row r of the token's best match. -/
theorem ref_eq_G (x0 : (⟨S64x128x768, .f32⟩ : BufTy).Contents (Elt Ideal)) (x1 : (⟨S64x128, .i32⟩ : BufTy).Contents (Elt Ideal))
    (x2 : (⟨S64x1024x768, .f32⟩ : BufTy).Contents (Elt Ideal)) (x3 : (⟨S64x1024, .i32⟩ : BufTy).Contents (Elt Ideal))
    (x4 : (⟨S128x768, .f32⟩ : BufTy).Contents (Elt Ideal)) :
    Cert.ReferenceIdeal.Read.val_main_v22 (F := Ideal) x0 x1 x2 x3 x4 = Cert.MaxSim.G x0 x1 x2 x3 x4 := by
  funext i
  obtain ⟨r, rfl⟩ : ∃ r : Fin 64, i = ix1 r :=
    ⟨⟨(i 0).val, (i 0).isLt⟩, funext fun a => by match a with | ⟨0, _⟩ => rfl⟩
  rw [val_main_v22_apply, val_main_cst_2_apply]
  have z : (FloatOps.ofBits .f32 0x00000000#32 : Ideal .f32) = 0 := Ideal.ofBits_zero_f32
  rw [z, zero_add]
  show _ = score x0 x1 x2 x3 x4 r
  unfold score
  refine Finset.sum_congr rfl fun s _ => ?_
  have e : idx_main_v22 (ix1 r) s = ix2 r s :=
    funext fun a => by match a with | ⟨0, _⟩ => rfl | ⟨1, _⟩ => rfl
  rw [e, best_apply]

end Cert.MaxSim.Ref

end
-- ==== Proof.Pieces.lean ====
/-
  What one grid point's body leaves behind, as pure functions of what it read.

  The body keeps two buffers between grid points: the running best match of every query token (8 × 128) and the unit
  query tokens (8 × 128 × 128).  At a first document tile it fills the running best with −∞, computes and keeps the
  unit query tokens, and then raises the running best by the tile's maxima; at the second tile it only raises the
  running best, and writes the row sums of the result into the output block.  Each lemma here names the contents one
  case leaves in one buffer as a composition of the body's arithmetic (the payload functions), for any float
  interpretation.
-/
import proofs.«142473_j77850577207387_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- The zero offsets of a rank-2 whole-buffer rectangle. -/
theorem hz2 : (![0, 0] : Fin 2 → Nat) = fun _ => 0 := funext fun a => by fin_cases a <;> rfl
/-- The zero offsets of a rank-3 whole-buffer rectangle. -/
theorem hz3 : (![0, 0, 0] : Fin 3 → Nat) = fun _ => 0 := funext fun a => by fin_cases a <;> rfl

/-- First tile: the unit-query buffer ends at the unit query tokens of the point's query block, mask block and weights. -/
theorem unitQ_first (c : Dev nD) (i : grid0.Coords) (arg2 : Memref sig .tc .vmem S8x128x768 .f32) (harg2 : arg2.IsWhole) (arg3 : Memref sig .tc .vmem S8x128 .i32) (harg3 : arg3.IsWhole) (arg4 : Memref sig .tc .vmem S8x512x768 .f32) (harg4 : arg4.IsWhole) (arg5 : Memref sig .tc .vmem S8x512 .i32) (harg5 : arg5.IsWhole) (arg6 : Memref sig .tc .vmem S768x128 .bf16) (harg6 : arg6.IsWhole) (arg7 : Memref sig .tc .vmem S8x1 .f32) (harg7 : arg7.IsWhole) (arg8 : Memref sig .tc .vmem S8x128 .f32) (harg8 : arg8.IsWhole) (arg9 : Memref sig .tc .vmem S8x128x128 .bf16) (harg9 : arg9.IsWhole) (hc0 : cond0_0 i) (hc1 : ¬cond0_1 i) (x0 : Vec F S8x128x768 .f32) (x1 : Vec F S8x128 .i32) (x2 : Vec F S8x512x768 .f32) (x3 : Vec F S8x512 .i32) (x4 : Vec F S768x128 .bf16) :
    sout0_A_1 c i arg2 harg2 arg3 harg3 arg4 harg4 arg5 harg5 arg6 harg6 arg7 harg7 arg8 harg8 arg9 harg9 hc0 hc1 x0 x1 x2 x3 x4 = k0_pay4 x4 x1 x0 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_run_names
  rw [View.canon_unit_zero (S := S8x128x128) hz3]
  simp only [View.readAt_eq_ld, harg2.read_unread, harg3.read_unread, harg4.read_unread, harg5.read_unread, harg6.read_unread, harg8.read_unread, harg9.read_unread, View.ld_unit_zero (S := S768x128) hz2, View.ld_unit_zero (S := S8x128) hz2, View.ld_unit_zero (S := S8x512) hz2, View.ld_unit_zero (S := S8x1) hz2, View.ld_unit_zero (S := S8x128x768) hz3, View.ld_unit_zero (S := S8x512x768) hz3, View.ld_unit_zero (S := S8x128x128) hz3]

/-- First tile: the running best ends at the −∞ fill raised by the tile's maxima against the unit query tokens just
    computed. -/
theorem best_first (c : Dev nD) (i : grid0.Coords) (arg2 : Memref sig .tc .vmem S8x128x768 .f32) (harg2 : arg2.IsWhole) (arg3 : Memref sig .tc .vmem S8x128 .i32) (harg3 : arg3.IsWhole) (arg4 : Memref sig .tc .vmem S8x512x768 .f32) (harg4 : arg4.IsWhole) (arg5 : Memref sig .tc .vmem S8x512 .i32) (harg5 : arg5.IsWhole) (arg6 : Memref sig .tc .vmem S768x128 .bf16) (harg6 : arg6.IsWhole) (arg7 : Memref sig .tc .vmem S8x1 .f32) (harg7 : arg7.IsWhole) (arg8 : Memref sig .tc .vmem S8x128 .f32) (harg8 : arg8.IsWhole) (arg9 : Memref sig .tc .vmem S8x128x128 .bf16) (harg9 : arg9.IsWhole) (hc0 : cond0_0 i) (hc1 : ¬cond0_1 i) (x0 : Vec F S8x128x768 .f32) (x1 : Vec F S8x128 .i32) (x2 : Vec F S8x512x768 .f32) (x3 : Vec F S8x512 .i32) (x4 : Vec F S768x128 .bf16) :
    sout0_A_0 c i arg2 harg2 arg3 harg3 arg4 harg4 arg5 harg5 arg6 harg6 arg7 harg7 arg8 harg8 arg9 harg9 hc0 hc1 x0 x1 x2 x3 x4 = k0_pay5 x4 x3 x2 (k0_pay4 x4 x1 x0) k0_pay3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_run_names
  rw [View.canon_cons_unit_zero (S := S8x128) hz2]
  rw [View.readCov_unit_zero (S := S8x128x128) _ hz3, View.readCov_unit_zero (S := S8x128) _ hz2]
  simp only [View.readAt_eq_ld, harg2.read_unread, harg3.read_unread, harg4.read_unread, harg5.read_unread, harg6.read_unread, harg8.read_unread, harg9.read_unread, View.ld_unit_zero (S := S768x128) hz2, View.ld_unit_zero (S := S8x128) hz2, View.ld_unit_zero (S := S8x512) hz2, View.ld_unit_zero (S := S8x1) hz2, View.ld_unit_zero (S := S8x128x768) hz3, View.ld_unit_zero (S := S8x512x768) hz3, View.ld_unit_zero (S := S8x128x128) hz3]

/-- Second tile: the running best ends at what the first tile left, raised by this tile's maxima against the kept unit
    query tokens. -/
theorem best_second (c : Dev nD) (i : grid0.Coords) (arg2 : Memref sig .tc .vmem S8x128x768 .f32) (harg2 : arg2.IsWhole) (arg3 : Memref sig .tc .vmem S8x128 .i32) (harg3 : arg3.IsWhole) (arg4 : Memref sig .tc .vmem S8x512x768 .f32) (harg4 : arg4.IsWhole) (arg5 : Memref sig .tc .vmem S8x512 .i32) (harg5 : arg5.IsWhole) (arg6 : Memref sig .tc .vmem S768x128 .bf16) (harg6 : arg6.IsWhole) (arg7 : Memref sig .tc .vmem S8x1 .f32) (harg7 : arg7.IsWhole) (arg8 : Memref sig .tc .vmem S8x128 .f32) (harg8 : arg8.IsWhole) (arg9 : Memref sig .tc .vmem S8x128x128 .bf16) (harg9 : arg9.IsWhole) (hc0 : ¬cond0_0 i) (hc1 : cond0_1 i) (x0 : Vec F S8x128x768 .f32) (x1 : Vec F S8x128 .i32) (x2 : Vec F S8x512x768 .f32) (x3 : Vec F S8x512 .i32) (x4 : Vec F S768x128 .bf16) (xs0 : Vec F S8x128 .f32) (xs1 : Vec F S8x128x128 .bf16) :
    sout0_B_0 c i arg2 harg2 arg3 harg3 arg4 harg4 arg5 harg5 arg6 harg6 arg7 harg7 arg8 harg8 arg9 harg9 hc0 hc1 x0 x1 x2 x3 x4 xs0 xs1 = k0_pay5 x4 x3 x2 xs1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_run_names
  rw [View.canon_unit_zero (S := S8x128) hz2]
  simp only [View.readAt_eq_ld, harg2.read_unread, harg3.read_unread, harg4.read_unread, harg5.read_unread, harg6.read_unread, harg8.read_unread, harg9.read_unread, View.ld_unit_zero (S := S768x128) hz2, View.ld_unit_zero (S := S8x128) hz2, View.ld_unit_zero (S := S8x512) hz2, View.ld_unit_zero (S := S8x1) hz2, View.ld_unit_zero (S := S8x128x768) hz3, View.ld_unit_zero (S := S8x512x768) hz3, View.ld_unit_zero (S := S8x128x128) hz3]

/-- Second tile: the output block ends at the row sums of the running best it has just raised. -/
theorem out_second (c : Dev nD) (i : grid0.Coords) (arg2 : Memref sig .tc .vmem S8x128x768 .f32) (harg2 : arg2.IsWhole) (arg3 : Memref sig .tc .vmem S8x128 .i32) (harg3 : arg3.IsWhole) (arg4 : Memref sig .tc .vmem S8x512x768 .f32) (harg4 : arg4.IsWhole) (arg5 : Memref sig .tc .vmem S8x512 .i32) (harg5 : arg5.IsWhole) (arg6 : Memref sig .tc .vmem S768x128 .bf16) (harg6 : arg6.IsWhole) (arg7 : Memref sig .tc .vmem S8x1 .f32) (harg7 : arg7.IsWhole) (arg8 : Memref sig .tc .vmem S8x128 .f32) (harg8 : arg8.IsWhole) (arg9 : Memref sig .tc .vmem S8x128x128 .bf16) (harg9 : arg9.IsWhole) (hc0 : ¬cond0_0 i) (hc1 : cond0_1 i) (x0 : Vec F S8x128x768 .f32) (x1 : Vec F S8x128 .i32) (x2 : Vec F S8x512x768 .f32) (x3 : Vec F S8x512 .i32) (x4 : Vec F S768x128 .bf16) (xs0 : Vec F S8x128 .f32) (xs1 : Vec F S8x128x128 .bf16) :
    out0_B_5 c i arg2 harg2 arg3 harg3 arg4 harg4 arg5 harg5 arg6 harg6 arg7 harg7 arg8 harg8 arg9 harg9 hc0 hc1 x0 x1 x2 x3 x4 xs0 xs1 = k0_pay1 (k0_pay5 x4 x3 x2 xs1 xs0) := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_run_names
  rw [View.canon_unit_zero (S := S8x1) hz2]
  rw [View.readCov_unit_zero (S := S8x128) _ hz2]
  simp only [View.readAt_eq_ld, harg2.read_unread, harg3.read_unread, harg4.read_unread, harg5.read_unread, harg6.read_unread, harg8.read_unread, harg9.read_unread, View.ld_unit_zero (S := S768x128) hz2, View.ld_unit_zero (S := S8x128) hz2, View.ld_unit_zero (S := S8x512) hz2, View.ld_unit_zero (S := S8x1) hz2, View.ld_unit_zero (S := S8x128x768) hz3, View.ld_unit_zero (S := S8x512x768) hz3, View.ld_unit_zero (S := S8x128x128) hz3]

end Cert.KernelIdeal.Pieces

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibRank3Layout.lean ====
import Idealize.ShloMosaic.Lib.Pipeline.Value
import Idealize.ShloMosaic.Lib.ValueIdx

/-!
# Layout operations of a kept-dimension reduction and of a flattened matrix product, read at coordinates

Four re-layouts, each read at an index written by its coordinates:
* an `[a, b]` array cast to `[a, b, 1]` (a trailing unit axis added) reads, at `(i, j, u)`, the operand at `(i, j)`;
* an `[a, b, 1]` array broadcast to `[a, b, c]` reads, at `(i, j, k)`, the operand at `(i, j, 0)`;
* an `[a, b, c]` array cast to `[n, c]` with the two leading axes flattened reads, at `(p, k)` with
  `p = i · b + j`, the operand at `(i, j, k)`;
* an `[n, c]` array cast back to `[a, b, c]` reads, at `(i, j, k)`, the operand at `(i · b + j, k)`.
Each is the row-major position computed on both sides.
-/

namespace Idealize.ShloMosaic.ValueLayout3

open Idealize.ShloMosaic Idealize.ShloMosaic.ValueIdx

variable {α : Type}

/-- `[a, b]` cast to `[a, b, 1]`, read at `(i, j, u)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` broadcast to `[a, b, c]`, read at `(i, j, k)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[a, b, c]` cast to `[n, c]` (the two leading axes flattened), read at `(p, k)` with `p = i · b + j`. -/
theorem shapeCast_abc_nc_apply {a b c n : ℕ} (x : (⟨3, ![a, b, c]⟩ : Shape).Idx → α)
    (h : (⟨3, ![a, b, c]⟩ : Shape).ShapeCasts ⟨2, ![n, c]⟩) (p : Fin n) (i : Fin a) (j : Fin b) (k : Fin c)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- `[n, c]` cast to `[a, b, c]`, read at `(i, j, k)`: the operand at `(p, k)` with `p = i · b + j`. -/
theorem shapeCast_nc_abc_apply {a b c n : ℕ} (x : (⟨2, ![n, c]⟩ : Shape).Idx → α)
    (h : (⟨2, ![n, c]⟩ : Shape).ShapeCasts ⟨3, ![a, b, c]⟩) (p : Fin n) (i : Fin a) (j : Fin b) (k : Fin c)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Idealize.ShloMosaic.ValueLayout3
-- ==== Proof.LibFlatten.lean ====
/-
  Two more layouts read at coordinates, for arrays of any extents.

  * An `[a, b]` array flattened to an `[n, 1]` column (n = a · b) reads, at `(p, 0)` with `p = i · b + j`, the array at
    `(i, j)`: both indices have row-major position `i · b + j`.
  * The maximum of an `[a, b, c]` array of extended reals along its last axis, started from the accumulator's value,
    is at `(i, j)` the fold of `max` over the `c` entries `(i, j, k)`.
-/
import Idealize.ShloMosaic.Lib.Pipeline.Value
import Idealize.ShloMosaic.Lib.ValueIdx
import Idealize.ShloMosaic.PureOps.Ideal.Laws

namespace Cert.LibFlatten

open Idealize.ShloMosaic Idealize.ShloMosaic.ValueIdx

variable {α : Type}

/-- `[a, b]` cast to `[n, 1]`, read at `(p, u)` with `p = i · b + j`. -/
theorem shapeCast_ab_n1_apply {a b n : ℕ} (x : (⟨2, ![a, b]⟩ : Shape).Idx → α)
    (h : (⟨2, ![a, b]⟩ : Shape).ShapeCasts ⟨2, ![n, 1]⟩) (p : Fin n) (u : Fin 1) (i : Fin a) (j : Fin b)
    (hp : p.val = i.val * b + j.val) :
    shapeCast ⟨2, ![n, 1]⟩ x h (ix2 p u) = x (ix2 i j) :=
  shapeCast_apply x h _ _ (by
    have hu : u.val = 0 := by omega
    rw [Shape.rowMajor_val_two, Shape.rowMajor_val_two]
    show i.val * b + j.val = p.val * 1 + u.val
    omega)

/-- The maximum along the last axis of an `[a, b, c]` array, from the accumulator's value, read at `(i, j)`. -/
theorem maxLast_apply {a b c : ℕ} (src : FVec Ideal (⟨3, ![a, b, c]⟩ : Shape) .f32)
    (h : (⟨3, ![a, b, c]⟩ : Shape).Reduces [(2 : Fin 3)] ⟨2, ![a, b]⟩) (hφ : FKind.Formats .f32)
    (hacc : (0xFF800000#32 : BitVec 32) = FKind.maximumf.neutral .f32 hφ) (i : Fin a) (j : Fin b) :
    multiReduction .maximumf [(2 : Fin 3)] ⟨2, ![a, b]⟩ src 0xFF800000#32 h hφ hacc (ix2 i j)
      = (Finset.univ : Finset (Fin c)).fold max (FloatOps.ofBits (F := Ideal) .f32 0xFF800000#32) fun k => src (ix3 i j k) :=
  (Ideal.multiReduction_maximumf_single src 0xFF800000#32 h hφ hacc (ix2 i j)).trans
    (congrArg (fun f => Finset.fold max (FloatOps.ofBits (F := Ideal) .f32 0xFF800000#32) f (Finset.univ : Finset (Fin c)))
      (funext fun k => congrArg src (funext fun ax => Fin.ext (by
        match ax with
        | ⟨0, _⟩ => rfl
        | ⟨1, _⟩ => rfl
        | ⟨2, _⟩ => rfl))))

end Cert.LibFlatten
-- ==== Proof.LibColumns.lean ====
/-
  Columns of a two-axis array.

  Three readings at explicit coordinates `(p, k)` (row `p`, column `k`), for arrays of any height `a`:
  a single column cut out of an `[a, b]` array and flattened to an `[a]` vector is the array's column; nine `[a, 1]`
  columns laid side by side form an `[a, 9]` array whose column `j` is the `j`-th of them; and the sum of an `[a, b]` array
  along its rows is, at row `p`, the sum over the `b` columns of the entries of that row.
-/
import Idealize.ShloMosaic.Lib.Pipeline.Value
import Idealize.ShloMosaic.Lib.ValueIdx
import Idealize.ShloMosaic.Lib.ValueLayout
import Idealize.ShloMosaic.PureOps.Ideal.Laws

namespace Cert.LibColumns

open Idealize.ShloMosaic Idealize.ShloMosaic.ValueIdx

variable {α : Type}

/-- Column `k` of an `[a, b]` array, cut out as an `[a, 1]` slice at column offset `o = k` and flattened to an `[a]`
    vector, reads at row `p` the array's entry `(p, k)`. -/
theorem col_apply {a b : ℕ} (o : ℕ) (v : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩)
    (p : Fin a) (k : Fin b) (hk : k.val = o) :
    shapeCast ⟨1, ![a]⟩ (extractStridedSlice ⟨2, ![a, 1]⟩ ![0, o] v hs) hc (ix1 p) = v (ix2 p k) :=
  (shapeCast_apply _ hc (ix1 p) (ix2 p (0 : Fin 1)) (by
    rw [Shape.rowMajor_val_two, Shape.rowMajor_val_one]
    show p.val * 1 + 0 = p.val
    omega)).trans (slice2_axis1_apply o v hs p (0 : Fin 1) k (by show k.val = o + 0; omega))

/-- One of nine things, chosen by a number below nine. -/
def pick9 {β : Type} (c0 c1 c2 c3 c4 c5 c6 c7 c8 : β) (j : Fin 9) : β :=
  match j with
  | ⟨0, _⟩ => c0
  | ⟨1, _⟩ => c1
  | ⟨2, _⟩ => c2
  | ⟨3, _⟩ => c3
  | ⟨4, _⟩ => c4
  | ⟨5, _⟩ => c5
  | ⟨6, _⟩ => c6
  | ⟨7, _⟩ => c7
  | ⟨8, _⟩ => c8
  | ⟨_ + 9, h⟩ => absurd h (Nat.not_lt.2 (Nat.le_add_left _ _))

/-- Choosing among nine functions and applying the chosen one is choosing among the nine values. -/
theorem pick9_app {β γ : Type} (c0 c1 c2 c3 c4 c5 c6 c7 c8 : β → γ) (j : Fin 9) (x : β) :
    pick9 c0 c1 c2 c3 c4 c5 c6 c7 c8 j x = pick9 (c0 x) (c1 x) (c2 x) (c3 x) (c4 x) (c5 x) (c6 x) (c7 x) (c8 x) j := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨n + 9, hn⟩ => exact absurd hn (Nat.not_lt.2 (Nat.le_add_left _ _))

/-- Two choices among nine agree when the nine things agree one by one. -/
theorem pick9_congr {β : Type} {a0 a1 a2 a3 a4 a5 a6 a7 a8 b0 b1 b2 b3 b4 b5 b6 b7 b8 : β}
    (h0 : a0 = b0) (h1 : a1 = b1) (h2 : a2 = b2) (h3 : a3 = b3) (h4 : a4 = b4) (h5 : a5 = b5) (h6 : a6 = b6)
    (h7 : a7 = b7) (h8 : a8 = b8) (j : Fin 9) :
    pick9 a0 a1 a2 a3 a4 a5 a6 a7 a8 j = pick9 b0 b1 b2 b3 b4 b5 b6 b7 b8 j := by
  rw [h0, h1, h2, h3, h4, h5, h6, h7, h8]

/-- Nine `[a, 1]` columns as the list of pieces a concatenation takes. -/
abbrev cols9 {a : ℕ} (c0 c1 c2 c3 c4 c5 c6 c7 c8 : (⟨2, ![a, 1]⟩ : Shape).Idx → α) : List ((s : Shape) × (s.Idx → α)) :=
  [⟨⟨2, ![a, 1]⟩, c0⟩, ⟨⟨2, ![a, 1]⟩, c1⟩, ⟨⟨2, ![a, 1]⟩, c2⟩, ⟨⟨2, ![a, 1]⟩, c3⟩, ⟨⟨2, ![a, 1]⟩, c4⟩,
    ⟨⟨2, ![a, 1]⟩, c5⟩, ⟨⟨2, ![a, 1]⟩, c6⟩, ⟨⟨2, ![a, 1]⟩, c7⟩, ⟨⟨2, ![a, 1]⟩, c8⟩]

/-- Nine `[a, 1]` columns joined along the column axis: the entry `(p, j)` of the `[a, 9]` result is the entry `(p, 0)`
    of the `j`-th column (the columns before it take up exactly `j` positions of the joined axis). -/
theorem concat9_apply {a : ℕ} (c0 c1 c2 c3 c4 c5 c6 c7 c8 : (⟨2, ![a, 1]⟩ : Shape).Idx → α)
    (h : Shape.Concatenates ((cols9 c0 c1 c2 c3 c4 c5 c6 c7 c8).map (·.1)) ⟨2, ![a, 9]⟩ 1)
    (p : Fin a) (j : Fin 9) :
    concatenate ⟨2, ![a, 9]⟩ 1 (cols9 c0 c1 c2 c3 c4 c5 c6 c7 c8) h (ix2 p j)
      = pick9 c0 c1 c2 c3 c4 c5 c6 c7 c8 j (ix2 p (0 : Fin 1)) := by
  have hi : ∀ (j : Fin 9) (b : Fin 2), b.cast (rfl : (2 : ℕ) = 2) ≠ (1 : Fin 2) →
      ((ix2 p (0 : Fin 1) : (⟨2, ![a, 1]⟩ : Shape).Idx) b).val
        = ((ix2 p j : (⟨2, ![a, 9]⟩ : Shape).Idx) (b.cast rfl)).val := by
    intro j b hb
    match b with
    | ⟨0, _⟩ => rfl
    | ⟨1, _⟩ => exact absurd rfl hb
  match j with
  | ⟨0, hj⟩ =>
    exact concatenate_apply_piece (t := ⟨2, ![a, 9]⟩) (1 : Fin 2) (cols9 c0 c1 c2 c3 c4 c5 c6 c7 c8) h (ix2 p (⟨0, hj⟩ : Fin 9)) 0
      (by show (0 : ℕ) < 9; decide) ⟨2, ![a, 1]⟩ c0 rfl rfl 0 rfl (ix2 p (0 : Fin 1)) (hi _) rfl
  | ⟨1, hj⟩ =>
    exact concatenate_apply_piece (t := ⟨2, ![a, 9]⟩) (1 : Fin 2) (cols9 c0 c1 c2 c3 c4 c5 c6 c7 c8) h (ix2 p (⟨1, hj⟩ : Fin 9)) 1
      (by show (1 : ℕ) < 9; decide) ⟨2, ![a, 1]⟩ c1 rfl rfl 1 rfl (ix2 p (0 : Fin 1)) (hi _) rfl
  | ⟨2, hj⟩ =>
    exact concatenate_apply_piece (t := ⟨2, ![a, 9]⟩) (1 : Fin 2) (cols9 c0 c1 c2 c3 c4 c5 c6 c7 c8) h (ix2 p (⟨2, hj⟩ : Fin 9)) 2
      (by show (2 : ℕ) < 9; decide) ⟨2, ![a, 1]⟩ c2 rfl rfl 2 rfl (ix2 p (0 : Fin 1)) (hi _) rfl
  | ⟨3, hj⟩ =>
    exact concatenate_apply_piece (t := ⟨2, ![a, 9]⟩) (1 : Fin 2) (cols9 c0 c1 c2 c3 c4 c5 c6 c7 c8) h (ix2 p (⟨3, hj⟩ : Fin 9)) 3
      (by show (3 : ℕ) < 9; decide) ⟨2, ![a, 1]⟩ c3 rfl rfl 3 rfl (ix2 p (0 : Fin 1)) (hi _) rfl
  | ⟨4, hj⟩ =>
    exact concatenate_apply_piece (t := ⟨2, ![a, 9]⟩) (1 : Fin 2) (cols9 c0 c1 c2 c3 c4 c5 c6 c7 c8) h (ix2 p (⟨4, hj⟩ : Fin 9)) 4
      (by show (4 : ℕ) < 9; decide) ⟨2, ![a, 1]⟩ c4 rfl rfl 4 rfl (ix2 p (0 : Fin 1)) (hi _) rfl
  | ⟨5, hj⟩ =>
    exact concatenate_apply_piece (t := ⟨2, ![a, 9]⟩) (1 : Fin 2) (cols9 c0 c1 c2 c3 c4 c5 c6 c7 c8) h (ix2 p (⟨5, hj⟩ : Fin 9)) 5
      (by show (5 : ℕ) < 9; decide) ⟨2, ![a, 1]⟩ c5 rfl rfl 5 rfl (ix2 p (0 : Fin 1)) (hi _) rfl
  | ⟨6, hj⟩ =>
    exact concatenate_apply_piece (t := ⟨2, ![a, 9]⟩) (1 : Fin 2) (cols9 c0 c1 c2 c3 c4 c5 c6 c7 c8) h (ix2 p (⟨6, hj⟩ : Fin 9)) 6
      (by show (6 : ℕ) < 9; decide) ⟨2, ![a, 1]⟩ c6 rfl rfl 6 rfl (ix2 p (0 : Fin 1)) (hi _) rfl
  | ⟨7, hj⟩ =>
    exact concatenate_apply_piece (t := ⟨2, ![a, 9]⟩) (1 : Fin 2) (cols9 c0 c1 c2 c3 c4 c5 c6 c7 c8) h (ix2 p (⟨7, hj⟩ : Fin 9)) 7
      (by show (7 : ℕ) < 9; decide) ⟨2, ![a, 1]⟩ c7 rfl rfl 7 rfl (ix2 p (0 : Fin 1)) (hi _) rfl
  | ⟨8, hj⟩ =>
    exact concatenate_apply_piece (t := ⟨2, ![a, 9]⟩) (1 : Fin 2) (cols9 c0 c1 c2 c3 c4 c5 c6 c7 c8) h (ix2 p (⟨8, hj⟩ : Fin 9)) 8
      (by show (8 : ℕ) < 9; decide) ⟨2, ![a, 1]⟩ c8 rfl rfl 8 rfl (ix2 p (0 : Fin 1)) (hi _) rfl
  | ⟨n + 9, hn⟩ => exact absurd hn (Nat.not_lt.2 (Nat.le_add_left _ _))

/-- The sum of an `[a, b]` array of extended reals along its rows (a lane reduction with the additive neutral element
    as accumulator), read at row `p`: the sum over the columns `k` of the entries `(p, k)`. -/
theorem rowSum_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun ax => Fin.ext (by
      match ax with
      | ⟨0, _⟩ => rfl
      | ⟨1, _⟩ => rfl)))

end Cert.LibColumns
-- ==== Proof.Rows1024.lean ====
/-
  The query tokens of a grid point: mask, project, and scale to unit length, read one coordinate at a time.

  The body flattens the block's 8 × 128 tokens to 1024 rows (row p = b · 128 + s), multiplies each row of 768 hidden values by
  the token's mask weight, multiplies the 1024 × 768 result by the 768 × 128 weight matrix, and scales each projected row
  by the reciprocal square root of max(squared length, ε²), the squared length being the row's sum of squares.  Read at
  token (b, s) and coordinate d this is the unit token of the specification, over the block, the mask block and the
  weights indexed (d, h) ↦ w[h, d].
-/
import proofs.«142473_j77850577207387_2_alg».proof.Proof.Gen.KernelIdeal.Skeleton
import proofs.«142473_j77850577207387_2_alg».proof.Proof.Spec
import proofs.«142473_j77850577207387_2_alg».proof.Proof.LibKeepdims
import proofs.«142473_j77850577207387_2_alg».proof.Proof.LibRank3Layout
import proofs.«142473_j77850577207387_2_alg».proof.Proof.LibFlatten
import proofs.«142473_j77850577207387_2_alg».proof.Proof.LibColumns
import Idealize.ShloMosaic.Lib.ValueIdx
import Idealize.ShloMosaic.Lib.Pipeline.Value
import Idealize.ShloMosaic.PureOps.Ideal.Laws
import Idealize.ShloMosaic.PureOps.IdealRules

noncomputable section

open scoped BigOperators

namespace Cert.KernelIdeal.Rows1024

open Cert.KernelIdeal Cert.KernelIdeal.Facts₀ Cert.KernelIdeal.Facts
open Idealize.ShloMosaic Idealize.ShloMosaic.ValueIdx Cert.MaxSim

/-- The dimensions of the projection: rows × 768 times 768 × 128, contracted over the 768 hidden values. -/
abbrev PD := dot_S1024x768_S768x128_S1024x128_1_0_0_1_n_n

theorem lhs0 (i : S1024x128.Idx) (q : PD.contr.Idx) : (PD.lhsIdx i q 0).val = (i 0).val := by
  unfold DotDims.lhsIdx
  rw [dif_neg (show ¬(0 : Fin S1024x768.rank) ∈ PD.lhsBatch by decide), dif_pos (show (0 : Fin S1024x768.rank) ∈ PD.lhsNonContracting by decide)]
  rfl
theorem lhs1 (i : S1024x128.Idx) (q : PD.contr.Idx) : (PD.lhsIdx i q 1).val = (q ⟨0, by decide⟩).val :=
  PD.lhsIdx_val_of_single rfl i q
theorem rhs0 (i : S1024x128.Idx) (q : PD.contr.Idx) : (PD.rhsIdx i q 0).val = (q ⟨0, by decide⟩).val :=
  PD.rhsIdx_val_of_single rfl i q
theorem rhs1 (i : S1024x128.Idx) (q : PD.contr.Idx) : (PD.rhsIdx i q 1).val = (i 1).val := by
  unfold DotDims.rhsIdx
  rw [dif_neg (show ¬(1 : Fin S768x128.rank) ∈ PD.rhsBatch by decide), dif_pos (show (1 : Fin S768x128.rank) ∈ PD.rhsNonContracting by decide)]
  rfl

/-- The matrix product into a zero accumulator, read at row `p` and column `d`: Σ_k lhs[p, k] · rhs[k, d]. -/
theorem product_apply (lhs : FVec Ideal S1024x768 .bf16) (rhs : FVec Ideal S768x128 .bf16) (p : Fin 1024) (d : Fin 128) :
    matmul PD none lhs rhs (constant (F := Ideal) S1024x128 .f32 0x00000000#32) (ix2 p d)
      = ∑ k : Fin 768, lhs (ix2 p k) * rhs (ix2 k d) := by
  refine (Ideal.matmul_constant_zero_apply PD none lhs rhs (ix2 p d)).trans ?_
  rw [← Equiv.sum_comp (contrEquiv1 PD 768 rfl rfl).symm]
  refine Finset.sum_congr rfl fun k _ => ?_
  have hk := contrEquiv1_symm_val PD 768 rfl rfl k
  have el : PD.lhsIdx (ix2 p d) ((contrEquiv1 PD 768 rfl rfl).symm k) = ix2 p k := funext fun a => Fin.ext (by
    match a with
    | ⟨0, _⟩ => exact lhs0 _ _
    | ⟨1, _⟩ => exact (lhs1 _ _).trans hk)
  have er : PD.rhsIdx (ix2 p d) ((contrEquiv1 PD 768 rfl rfl).symm k) = ix2 k d := funext fun a => Fin.ext (by
    match a with
    | ⟨0, _⟩ => exact (rhs0 _ _).trans hk
    | ⟨1, _⟩ => exact rhs1 _ _)
  rw [el, er]

/-- The rows, each multiplied by its token's mask weight. -/
def masked (m : Vec Ideal S8x128 .i32) (x : FVec Ideal S8x128x768 .f32) : FVec Ideal S1024x768 .bf16 :=
  truncf .bf16 (mulf (shapeCast S1024x768 x shapeCasts_S8x128x768_S1024x768)
      (broadcastTo S1024x768 (shapeCast S1024x1 (sitofp .f32 m) shapeCasts_S8x128_S1024x1) broadcasts_S1024x1_S1024x768))
    bitsLt_bf16_f32

theorem masked_apply (m : Vec Ideal S8x128 .i32) (x : FVec Ideal S8x128x768 .f32) (p : Fin 1024) (b : Fin 8) (s : Fin 128)
    (h : Fin 768) (hp : p.val = b.val * 128 + s.val) :
    masked m x (ix2 p h) = x (ix3 b s h) * wt (m (ix2 b s)) := by
  show shapeCast S1024x768 x shapeCasts_S8x128x768_S1024x768 (ix2 p h)
      * broadcastTo S1024x768 (shapeCast S1024x1 (sitofp (F := Ideal) .f32 m) shapeCasts_S8x128_S1024x1) broadcasts_S1024x1_S1024x768 (ix2 p h) = _
  rw [ValueLayout3.shapeCast_abc_nc_apply x _ p b s h hp, Cert.LibKeepdims.broadcastTo_a1_ab_apply,
    Cert.LibFlatten.shapeCast_ab_n1_apply _ _ p 0 b s hp]
  rfl

/-- The projected rows. -/
def proj (v0 : FVec Ideal S768x128 .bf16) (m : Vec Ideal S8x128 .i32) (x : FVec Ideal S8x128x768 .f32) : FVec Ideal S1024x128 .f32 :=
  matmul PD none (masked m x) (shapeCast S768x128 v0 shapeCasts_S768x128_S768x128) (constant S1024x128 .f32 0x00000000#32)

theorem proj_apply (v0 : FVec Ideal S768x128 .bf16) (m : Vec Ideal S8x128 .i32) (x : FVec Ideal S8x128x768 .f32) (p : Fin 1024)
    (b : Fin 8) (s : Fin 128) (d : Fin 128) (hp : p.val = b.val * 128 + s.val) :
    proj v0 m x (ix2 p d) = tokProj x m (fun d h => v0 (ix2 h d)) b s d := by
  unfold proj tokProj
  refine (product_apply _ _ p d).trans (Finset.sum_congr rfl fun k _ => ?_)
  rw [masked_apply m x p b s k hp, shapeCast_self]

/-- The kernel's name for ε² denotes ε². -/
theorem named_epsSq : Named.named (F := Ideal) κ "eps_sq" (φ := .f32) 0x179ABE15#32 = epsSq :=
  IdealRules.named_const.ideal_named_scalar _ _ _ _ rfl

/-- The squared length of every projected row, as a column. -/
def sqCol (v0 : FVec Ideal S768x128 .bf16) (m : Vec Ideal S8x128 .i32) (x : FVec Ideal S8x128x768 .f32) : FVec Ideal S1024x1 .f32 :=
  shapeCast S1024x1 (multiReduction .add [1] S1024 (mulf (proj v0 m x) (proj v0 m x)) 0x00000000#32 reduces_S1024x128_S1024 (.inl rfl) rfl)
    shapeCasts_S1024_S1024x1

theorem sqCol_apply (v0 : FVec Ideal S768x128 .bf16) (m : Vec Ideal S8x128 .i32) (x : FVec Ideal S8x128x768 .f32) (p : Fin 1024)
    (b : Fin 8) (s : Fin 128) (hp : p.val = b.val * 128 + s.val) :
    sqCol v0 m x (ix2 p (0 : Fin 1)) = tokSq x m (fun d h => v0 (ix2 h d)) b s :=
  (Cert.LibKeepdims.shapeCast_a_a1_apply _ _ p 0).trans ((Cert.LibColumns.rowSum_apply _ _ _ _ p).trans
    (Finset.sum_congr rfl fun k _ => by
      show proj v0 m x (ix2 p k) * proj v0 m x (ix2 p k) = _
      rw [proj_apply v0 m x p b s k hp]))

/-- The projected rows, each scaled by the reciprocal square root of max(its squared length, ε²). -/
def scaled (v0 : FVec Ideal S768x128 .bf16) (m : Vec Ideal S8x128 .i32) (x : FVec Ideal S8x128x768 .f32) : FVec Ideal S1024x128 .f32 :=
  mulf (proj v0 m x) (broadcastTo S1024x128 (rsqrt (maximumf (sqCol v0 m x)
    (broadcast S1024x1 (Named.named κ "eps_sq" 0x179ABE15#32)))) broadcasts_S1024x1_S1024x128)

theorem scaled_apply (v0 : FVec Ideal S768x128 .bf16) (m : Vec Ideal S8x128 .i32) (x : FVec Ideal S8x128x768 .f32) (p : Fin 1024)
    (b : Fin 8) (s : Fin 128) (d : Fin 128) (hp : p.val = b.val * 128 + s.val) :
    scaled v0 m x (ix2 p d) = tokUnit x m (fun d h => v0 (ix2 h d)) b s d := by
  show proj v0 m x (ix2 p d) * broadcastTo S1024x128 (rsqrt (maximumf (sqCol v0 m x)
    (broadcast S1024x1 (Named.named (F := Ideal) κ "eps_sq" (φ := .f32) 0x179ABE15#32)))) broadcasts_S1024x1_S1024x128 (ix2 p d) = _
  rw [Cert.LibKeepdims.broadcastTo_a1_ab_apply, proj_apply v0 m x p b s d hp]
  show _ * Ideal.rsqrt (max (sqCol v0 m x (ix2 p (0 : Fin 1))) (Named.named (F := Ideal) κ "eps_sq" (φ := .f32) 0x179ABE15#32)) = _
  rw [sqCol_apply v0 m x p b s hp, named_epsSq]
  rfl

/-- The unit tokens of the block, back in 8 × 128 × 128 layout. -/
def unitRows (v0 : FVec Ideal S768x128 .bf16) (m : Vec Ideal S8x128 .i32) (x : FVec Ideal S8x128x768 .f32) : FVec Ideal S8x128x128 .bf16 :=
  truncf .bf16 (shapeCast S8x128x128 (scaled v0 m x) shapeCasts_S1024x128_S8x128x128) bitsLt_bf16_f32

theorem unitRows_apply (v0 : FVec Ideal S768x128 .bf16) (m : Vec Ideal S8x128 .i32) (x : FVec Ideal S8x128x768 .f32)
    (b : Fin 8) (s : Fin 128) (d : Fin 128) :
    unitRows v0 m x (ix3 b s d) = tokUnit x m (fun d h => v0 (ix2 h d)) b s d := by
  have hpl : b.val * 128 + s.val < 1024 := by have := b.isLt; have := s.isLt; omega
  obtain ⟨p, hp⟩ : ∃ p : Fin 1024, p.val = b.val * 128 + s.val := ⟨⟨_, hpl⟩, rfl⟩
  show shapeCast S8x128x128 (scaled v0 m x) shapeCasts_S1024x128_S8x128x128 (ix3 b s d) = _
  rw [ValueLayout3.shapeCast_nc_abc_apply _ _ p b s d hp]
  exact scaled_apply v0 m x p b s d hp

end Cert.KernelIdeal.Rows1024

end
-- ==== Proof.Rows4096.lean ====
/-
  The document tokens of a grid point's tile: mask, project, and scale to unit length, read one coordinate at a time.

  The body flattens the block's 8 × 512 tokens to 4096 rows (row p = b · 512 + s), multiplies each row of 768 hidden values by
  the token's mask weight, multiplies the 4096 × 768 result by the 768 × 128 weight matrix, and scales each projected row
  by the reciprocal square root of max(squared length, ε²), the squared length being the row's sum of squares.  Read at
  token (b, s) and coordinate d this is the unit token of the specification, over the block, the mask block and the
  weights indexed (d, h) ↦ w[h, d].
-/
import proofs.«142473_j77850577207387_2_alg».proof.Proof.Gen.KernelIdeal.Skeleton
import proofs.«142473_j77850577207387_2_alg».proof.Proof.Spec
import proofs.«142473_j77850577207387_2_alg».proof.Proof.LibKeepdims
import proofs.«142473_j77850577207387_2_alg».proof.Proof.LibRank3Layout
import proofs.«142473_j77850577207387_2_alg».proof.Proof.LibFlatten
import proofs.«142473_j77850577207387_2_alg».proof.Proof.LibColumns
import Idealize.ShloMosaic.Lib.ValueIdx
import Idealize.ShloMosaic.Lib.Pipeline.Value
import Idealize.ShloMosaic.PureOps.Ideal.Laws
import Idealize.ShloMosaic.PureOps.IdealRules

noncomputable section

open scoped BigOperators

namespace Cert.KernelIdeal.Rows4096

open Cert.KernelIdeal Cert.KernelIdeal.Facts₀ Cert.KernelIdeal.Facts
open Idealize.ShloMosaic Idealize.ShloMosaic.ValueIdx Cert.MaxSim

/-- The dimensions of the projection: rows × 768 times 768 × 128, contracted over the 768 hidden values. -/
abbrev PD := dot_S4096x768_S768x128_S4096x128_1_0_0_1_n_n

theorem lhs0 (i : S4096x128.Idx) (q : PD.contr.Idx) : (PD.lhsIdx i q 0).val = (i 0).val := by
  unfold DotDims.lhsIdx
  rw [dif_neg (show ¬(0 : Fin S4096x768.rank) ∈ PD.lhsBatch by decide), dif_pos (show (0 : Fin S4096x768.rank) ∈ PD.lhsNonContracting by decide)]
  rfl
theorem lhs1 (i : S4096x128.Idx) (q : PD.contr.Idx) : (PD.lhsIdx i q 1).val = (q ⟨0, by decide⟩).val :=
  PD.lhsIdx_val_of_single rfl i q
theorem rhs0 (i : S4096x128.Idx) (q : PD.contr.Idx) : (PD.rhsIdx i q 0).val = (q ⟨0, by decide⟩).val :=
  PD.rhsIdx_val_of_single rfl i q
theorem rhs1 (i : S4096x128.Idx) (q : PD.contr.Idx) : (PD.rhsIdx i q 1).val = (i 1).val := by
  unfold DotDims.rhsIdx
  rw [dif_neg (show ¬(1 : Fin S768x128.rank) ∈ PD.rhsBatch by decide), dif_pos (show (1 : Fin S768x128.rank) ∈ PD.rhsNonContracting by decide)]
  rfl

/-- The matrix product into a zero accumulator, read at row `p` and column `d`: Σ_k lhs[p, k] · rhs[k, d]. -/
theorem product_apply (lhs : FVec Ideal S4096x768 .bf16) (rhs : FVec Ideal S768x128 .bf16) (p : Fin 4096) (d : Fin 128) :
    matmul PD none lhs rhs (constant (F := Ideal) S4096x128 .f32 0x00000000#32) (ix2 p d)
      = ∑ k : Fin 768, lhs (ix2 p k) * rhs (ix2 k d) := by
  refine (Ideal.matmul_constant_zero_apply PD none lhs rhs (ix2 p d)).trans ?_
  rw [← Equiv.sum_comp (contrEquiv1 PD 768 rfl rfl).symm]
  refine Finset.sum_congr rfl fun k _ => ?_
  have hk := contrEquiv1_symm_val PD 768 rfl rfl k
  have el : PD.lhsIdx (ix2 p d) ((contrEquiv1 PD 768 rfl rfl).symm k) = ix2 p k := funext fun a => Fin.ext (by
    match a with
    | ⟨0, _⟩ => exact lhs0 _ _
    | ⟨1, _⟩ => exact (lhs1 _ _).trans hk)
  have er : PD.rhsIdx (ix2 p d) ((contrEquiv1 PD 768 rfl rfl).symm k) = ix2 k d := funext fun a => Fin.ext (by
    match a with
    | ⟨0, _⟩ => exact (rhs0 _ _).trans hk
    | ⟨1, _⟩ => exact rhs1 _ _)
  rw [el, er]

/-- The rows, each multiplied by its token's mask weight. -/
def masked (m : Vec Ideal S8x512 .i32) (x : FVec Ideal S8x512x768 .f32) : FVec Ideal S4096x768 .bf16 :=
  truncf .bf16 (mulf (shapeCast S4096x768 x shapeCasts_S8x512x768_S4096x768)
      (broadcastTo S4096x768 (shapeCast S4096x1 (sitofp .f32 m) shapeCasts_S8x512_S4096x1) broadcasts_S4096x1_S4096x768))
    bitsLt_bf16_f32

theorem masked_apply (m : Vec Ideal S8x512 .i32) (x : FVec Ideal S8x512x768 .f32) (p : Fin 4096) (b : Fin 8) (s : Fin 512)
    (h : Fin 768) (hp : p.val = b.val * 512 + s.val) :
    masked m x (ix2 p h) = x (ix3 b s h) * wt (m (ix2 b s)) := by
  show shapeCast S4096x768 x shapeCasts_S8x512x768_S4096x768 (ix2 p h)
      * broadcastTo S4096x768 (shapeCast S4096x1 (sitofp (F := Ideal) .f32 m) shapeCasts_S8x512_S4096x1) broadcasts_S4096x1_S4096x768 (ix2 p h) = _
  rw [ValueLayout3.shapeCast_abc_nc_apply x _ p b s h hp, Cert.LibKeepdims.broadcastTo_a1_ab_apply,
    Cert.LibFlatten.shapeCast_ab_n1_apply _ _ p 0 b s hp]
  rfl

/-- The projected rows. -/
def proj (v0 : FVec Ideal S768x128 .bf16) (m : Vec Ideal S8x512 .i32) (x : FVec Ideal S8x512x768 .f32) : FVec Ideal S4096x128 .f32 :=
  matmul PD none (masked m x) (shapeCast S768x128 v0 shapeCasts_S768x128_S768x128) (constant S4096x128 .f32 0x00000000#32)

theorem proj_apply (v0 : FVec Ideal S768x128 .bf16) (m : Vec Ideal S8x512 .i32) (x : FVec Ideal S8x512x768 .f32) (p : Fin 4096)
    (b : Fin 8) (s : Fin 512) (d : Fin 128) (hp : p.val = b.val * 512 + s.val) :
    proj v0 m x (ix2 p d) = tokProj x m (fun d h => v0 (ix2 h d)) b s d := by
  unfold proj tokProj
  refine (product_apply _ _ p d).trans (Finset.sum_congr rfl fun k _ => ?_)
  rw [masked_apply m x p b s k hp, shapeCast_self]

/-- The kernel's name for ε² denotes ε². -/
theorem named_epsSq : Named.named (F := Ideal) κ "eps_sq" (φ := .f32) 0x179ABE15#32 = epsSq :=
  IdealRules.named_const.ideal_named_scalar _ _ _ _ rfl

/-- The squared length of every projected row, as a column. -/
def sqCol (v0 : FVec Ideal S768x128 .bf16) (m : Vec Ideal S8x512 .i32) (x : FVec Ideal S8x512x768 .f32) : FVec Ideal S4096x1 .f32 :=
  shapeCast S4096x1 (multiReduction .add [1] S4096 (mulf (proj v0 m x) (proj v0 m x)) 0x00000000#32 reduces_S4096x128_S4096 (.inl rfl) rfl)
    shapeCasts_S4096_S4096x1

theorem sqCol_apply (v0 : FVec Ideal S768x128 .bf16) (m : Vec Ideal S8x512 .i32) (x : FVec Ideal S8x512x768 .f32) (p : Fin 4096)
    (b : Fin 8) (s : Fin 512) (hp : p.val = b.val * 512 + s.val) :
    sqCol v0 m x (ix2 p (0 : Fin 1)) = tokSq x m (fun d h => v0 (ix2 h d)) b s :=
  (Cert.LibKeepdims.shapeCast_a_a1_apply _ _ p 0).trans ((Cert.LibColumns.rowSum_apply _ _ _ _ p).trans
    (Finset.sum_congr rfl fun k _ => by
      show proj v0 m x (ix2 p k) * proj v0 m x (ix2 p k) = _
      rw [proj_apply v0 m x p b s k hp]))

/-- The projected rows, each scaled by the reciprocal square root of max(its squared length, ε²). -/
def scaled (v0 : FVec Ideal S768x128 .bf16) (m : Vec Ideal S8x512 .i32) (x : FVec Ideal S8x512x768 .f32) : FVec Ideal S4096x128 .f32 :=
  mulf (proj v0 m x) (broadcastTo S4096x128 (rsqrt (maximumf (sqCol v0 m x)
    (broadcast S4096x1 (Named.named κ "eps_sq" 0x179ABE15#32)))) broadcasts_S4096x1_S4096x128)

theorem scaled_apply (v0 : FVec Ideal S768x128 .bf16) (m : Vec Ideal S8x512 .i32) (x : FVec Ideal S8x512x768 .f32) (p : Fin 4096)
    (b : Fin 8) (s : Fin 512) (d : Fin 128) (hp : p.val = b.val * 512 + s.val) :
    scaled v0 m x (ix2 p d) = tokUnit x m (fun d h => v0 (ix2 h d)) b s d := by
  show proj v0 m x (ix2 p d) * broadcastTo S4096x128 (rsqrt (maximumf (sqCol v0 m x)
    (broadcast S4096x1 (Named.named (F := Ideal) κ "eps_sq" (φ := .f32) 0x179ABE15#32)))) broadcasts_S4096x1_S4096x128 (ix2 p d) = _
  rw [Cert.LibKeepdims.broadcastTo_a1_ab_apply, proj_apply v0 m x p b s d hp]
  show _ * Ideal.rsqrt (max (sqCol v0 m x (ix2 p (0 : Fin 1))) (Named.named (F := Ideal) κ "eps_sq" (φ := .f32) 0x179ABE15#32)) = _
  rw [sqCol_apply v0 m x p b s hp, named_epsSq]
  rfl

/-- The unit tokens of the block, back in 8 × 512 × 128 layout. -/
def unitRows (v0 : FVec Ideal S768x128 .bf16) (m : Vec Ideal S8x512 .i32) (x : FVec Ideal S8x512x768 .f32) : FVec Ideal S8x512x128 .bf16 :=
  truncf .bf16 (shapeCast S8x512x128 (scaled v0 m x) shapeCasts_S4096x128_S8x512x128) bitsLt_bf16_f32

theorem unitRows_apply (v0 : FVec Ideal S768x128 .bf16) (m : Vec Ideal S8x512 .i32) (x : FVec Ideal S8x512x768 .f32)
    (b : Fin 8) (s : Fin 512) (d : Fin 128) :
    unitRows v0 m x (ix3 b s d) = tokUnit x m (fun d h => v0 (ix2 h d)) b s d := by
  have hpl : b.val * 512 + s.val < 4096 := by have := b.isLt; have := s.isLt; omega
  obtain ⟨p, hp⟩ : ∃ p : Fin 4096, p.val = b.val * 512 + s.val := ⟨⟨_, hpl⟩, rfl⟩
  show shapeCast S8x512x128 (scaled v0 m x) shapeCasts_S4096x128_S8x512x128 (ix3 b s d) = _
  rw [ValueLayout3.shapeCast_nc_abc_apply _ _ p b s d hp]
  exact scaled_apply v0 m x p b s d hp

end Cert.KernelIdeal.Rows4096

end
-- ==== Proof.Payload.lean ====
/-
  The body's arithmetic read at coordinates, on the extended reals.

  * The −∞ fill is −∞ everywhere.
  * The unit-query payload at (b, s, d) is the unit token of the specification over the query block.
  * The similarity of a tile: an 8-batched product of the 128 × 128 unit queries with the 512 × 128 unit documents,
    contracted over the 128 coordinates, is at (b, s, t) the inner product Σ_d q[b,s,d] · k[b,t,d].
  * The raised running best at (b, s) is the greater of the previous best and the greatest, over the tile's 512 document
    tokens, of the similarity with query token (b, s).
  * The row sums of the running best at (b, 0) are Σ_s best[b, s].
-/
import proofs.«142473_j77850577207387_2_alg».proof.Proof.Rows1024
import proofs.«142473_j77850577207387_2_alg».proof.Proof.Rows4096

noncomputable section

open scoped BigOperators

namespace Cert.KernelIdeal.Payload

open Cert.KernelIdeal Cert.KernelIdeal.Facts₀ Cert.KernelIdeal.Facts
open Idealize.ShloMosaic Idealize.ShloMosaic.ValueIdx Cert.MaxSim

/-- The weight block 768 × 128 as the function (d, h) ↦ w[h, d]. -/
abbrev wOf (v0 : FVec Ideal S768x128 .bf16) : Fin 128 → Fin 768 → EReal := fun d h => v0 (ix2 h d)

/-! ## The similarity product -/

/-- The dimensions of the similarity product: batch axis 0 on both sides, contraction over the last axis of both. -/
abbrev BD := dot_S8x128x128_S8x512x128_S8x128x512_2_2_1_1_0_0

theorem lhs0 (i : S8x128x512.Idx) (q : BD.contr.Idx) : (BD.lhsIdx i q 0).val = (i 0).val := by
  unfold DotDims.lhsIdx
  rw [dif_pos (show (0 : Fin S8x128x128.rank) ∈ BD.lhsBatch by decide)]
  rfl
theorem lhs1 (i : S8x128x512.Idx) (q : BD.contr.Idx) : (BD.lhsIdx i q 1).val = (i 1).val := by
  unfold DotDims.lhsIdx
  rw [dif_neg (show ¬(1 : Fin S8x128x128.rank) ∈ BD.lhsBatch by decide), dif_pos (show (1 : Fin S8x128x128.rank) ∈ BD.lhsNonContracting by decide)]
  rfl
theorem lhs2 (i : S8x128x512.Idx) (q : BD.contr.Idx) : (BD.lhsIdx i q 2).val = (q ⟨0, by decide⟩).val :=
  BD.lhsIdx_val_of_single rfl i q
theorem rhs0 (i : S8x128x512.Idx) (q : BD.contr.Idx) : (BD.rhsIdx i q 0).val = (i 0).val := by
  unfold DotDims.rhsIdx
  rw [dif_pos (show (0 : Fin S8x512x128.rank) ∈ BD.rhsBatch by decide)]
  rfl
theorem rhs1 (i : S8x128x512.Idx) (q : BD.contr.Idx) : (BD.rhsIdx i q 1).val = (i 2).val := by
  unfold DotDims.rhsIdx
  rw [dif_neg (show ¬(1 : Fin S8x512x128.rank) ∈ BD.rhsBatch by decide), dif_pos (show (1 : Fin S8x512x128.rank) ∈ BD.rhsNonContracting by decide)]
  rfl
theorem rhs2 (i : S8x128x512.Idx) (q : BD.contr.Idx) : (BD.rhsIdx i q 2).val = (q ⟨0, by decide⟩).val :=
  BD.rhsIdx_val_of_single rfl i q

/-- The similarity product into a zero accumulator at (b, s, t): Σ_d q[b,s,d] · k[b,t,d]. -/
theorem simTile_apply (q : FVec Ideal S8x128x128 .bf16) (k : FVec Ideal S8x512x128 .bf16) (b : Fin 8) (s : Fin 128) (t : Fin 512) :
    matmul BD none q k (constant (F := Ideal) S8x128x512 .f32 0x00000000#32) (ix3 b s t)
      = ∑ d : Fin 128, q (ix3 b s d) * k (ix3 b t d) := by
  refine (Ideal.matmul_constant_zero_apply BD none q k (ix3 b s t)).trans ?_
  rw [← Equiv.sum_comp (contrEquiv1 BD 128 rfl rfl).symm]
  refine Finset.sum_congr rfl fun d _ => ?_
  have hk := contrEquiv1_symm_val BD 128 rfl rfl d
  have el : BD.lhsIdx (ix3 b s t) ((contrEquiv1 BD 128 rfl rfl).symm d) = ix3 b s d := funext fun a => Fin.ext (by
    match a with
    | ⟨0, _⟩ => exact lhs0 _ _
    | ⟨1, _⟩ => exact lhs1 _ _
    | ⟨2, _⟩ => exact (lhs2 _ _).trans hk)
  have er : BD.rhsIdx (ix3 b s t) ((contrEquiv1 BD 128 rfl rfl).symm d) = ix3 b t d := funext fun a => Fin.ext (by
    match a with
    | ⟨0, _⟩ => exact rhs0 _ _
    | ⟨1, _⟩ => exact rhs1 _ _
    | ⟨2, _⟩ => exact (rhs2 _ _).trans hk)
  rw [el, er]

/-! ## The payloads -/

/-- The fill of the running best is −∞ at every entry. -/
theorem fill_apply (i : S8x128.Idx) : Gen.k0_pay3 (F := Ideal) i = (⊥ : EReal) := by
  show shapeCast S8x128 (broadcast S8x128 (Scalar.ofBits (F := Ideal) .f32 0xFF800000#32)) shapeCasts_S8x128_S8x128 i = _
  rw [shapeCast_self]
  exact ofBits_negInf

/-- The unit-query payload at (b, s, d). -/
theorem unitQ_apply (v0 : FVec Ideal S768x128 .bf16) (m : Vec Ideal S8x128 .i32) (x : FVec Ideal S8x128x768 .f32)
    (b : Fin 8) (s : Fin 128) (d : Fin 128) :
    Gen.k0_pay4 (F := Ideal) v0 m x (ix3 b s d) = tokUnit x m (wOf v0) b s d := by
  have e : Gen.k0_pay4 (F := Ideal) v0 m x
      = shapeCast S8x128x128 (Rows1024.unitRows v0 m x) shapeCasts_S8x128x128_S8x128x128 := rfl
  rw [e, shapeCast_self]
  exact Rows1024.unitRows_apply v0 m x b s d

/-- The raised running best at (b, s). -/
theorem raise_apply (v0 : FVec Ideal S768x128 .bf16) (v5 : Vec Ideal S8x512 .i32) (v8 : FVec Ideal S8x512x768 .f32)
    (v24 : FVec Ideal S8x128x128 .bf16) (v27 : FVec Ideal S8x128 .f32) (b : Fin 8) (s : Fin 128) :
    Gen.k0_pay5 (F := Ideal) v0 v5 v8 v24 v27 (ix2 b s)
      = max (v27 (ix2 b s)) ((Finset.univ : Finset (Fin 512)).fold max ⊥ fun t =>
          ∑ d : Fin 128, v24 (ix3 b s d) * tokUnit v8 v5 (wOf v0) b t d) := by
  have e : Gen.k0_pay5 (F := Ideal) v0 v5 v8 v24 v27
      = shapeCast S8x128 (maximumf v27 (multiReduction .maximumf [2] S8x128
          (matmul BD none v24 (Rows4096.unitRows v0 v5 v8) (constant S8x128x512 .f32 0x00000000#32))
          0xFF800000#32 reduces_S8x128x512_S8x128 (.inl rfl) rfl)) shapeCasts_S8x128_S8x128 := rfl
  rw [e, shapeCast_self]
  show max (v27 (ix2 b s)) (multiReduction .maximumf [2] S8x128
      (matmul BD none v24 (Rows4096.unitRows v0 v5 v8) (constant (F := Ideal) S8x128x512 .f32 0x00000000#32))
      0xFF800000#32 reduces_S8x128x512_S8x128 (.inl rfl) rfl (ix2 b s)) = _
  refine congrArg (max (v27 (ix2 b s))) ?_
  refine (Cert.LibFlatten.maxLast_apply _ _ _ _ b s).trans ?_
  have hb : (FloatOps.ofBits (F := Ideal) .f32 0xFF800000#32) = (⊥ : EReal) := ofBits_negInf
  rw [hb]
  refine congrArg (fun f => Finset.fold max (⊥ : EReal) f (Finset.univ : Finset (Fin 512))) (funext fun t => ?_)
  refine (simTile_apply _ _ b s t).trans (Finset.sum_congr rfl fun d _ => ?_)
  rw [Rows4096.unitRows_apply]

/-- The row sums of the running best at (b, 0). -/
theorem rowSum_apply (v35 : FVec Ideal S8x128 .f32) (b : Fin 8) (u : Fin 1) :
    Gen.k0_pay1 (F := Ideal) v35 (ix2 b u) = ∑ s : Fin 128, v35 (ix2 b s) := by
  show shapeCast S8x1 (multiReduction .add [1] S8 v35 0x00000000#32 reduces_S8x128_S8 (.inl rfl) rfl) shapeCasts_S8_S8x1 (ix2 b u) = _
  exact (Cert.LibKeepdims.shapeCast_a_a1_apply _ shapeCasts_S8_S8x1 b u).trans (Cert.LibColumns.rowSum_apply _ _ _ _ b)

end Cert.KernelIdeal.Payload

end
-- ==== Proof.Tiles.lean ====
/-
  One batch tile's two grid points, as mathematics over arrays.

  Fix the five arrays Q, QM, D, DM and the weights W (as (d, h) ↦ W[d, h]), a map `r` from the tile's 8 rows to rows of
  the batch, and blocks that agree with the arrays at the tile's rows (and, for the document blocks, at a tile of 512
  tokens given by a map `tk`).  Then:
  * the unit-query payload over the query block is the unit query token of the arrays;
  * at the first document tile the running best is −∞ raised by that tile's greatest similarities;
  * at the second tile, handed what the first left, the output block is, row by row, the sum over the 128 query tokens
    of the greater of the two tiles' greatest similarities — the score, once the two tiles are the two halves of the
    1024 document tokens.
-/
import proofs.«142473_j77850577207387_2_alg».proof.Proof.Payload

noncomputable section

open scoped BigOperators

namespace Cert.KernelIdeal.Tiles

open Cert.KernelIdeal
open Idealize.ShloMosaic Idealize.ShloMosaic.ValueIdx Cert.MaxSim
open Cert.KernelIdeal.Payload (wOf)

variable (Q : S64x128x768.Idx → EReal) (QM : S64x128.Idx → BitVec 32)
variable (D : S64x1024x768.Idx → EReal) (DM : S64x1024.Idx → BitVec 32) (W : Fin 128 → Fin 768 → EReal)

/-- The similarity of query token `s` and document token `t` of batch row `r`. -/
def sim (r : Fin 64) (s : Fin 128) (t : Fin 1024) : EReal :=
  ∑ d : Fin 128, tokUnit Q QM W r s d * tokUnit D DM W r t d

/-- The greatest similarity of query token (r, s) over a tile of 512 document tokens, from −∞. -/
def tileBest (tk : Fin 512 → Fin 1024) (r : Fin 64) (s : Fin 128) : EReal :=
  (Finset.univ : Finset (Fin 512)).fold max ⊥ fun u => sim Q QM D DM W r s (tk u)

/-- A weight block that holds W transposed gives W as its (d, h) ↦ w[h, d]. -/
theorem wOf_eq (x4 : FVec Ideal S768x128 .bf16) (hx4 : ∀ (h : Fin 768) (d : Fin 128), x4 (ix2 h d) = W d h) : wOf x4 = W :=
  funext fun d => funext fun h => hx4 h d

/-- The unit-query payload over a query block that agrees with the arrays on the tile's rows. -/
theorem first_unitQ (x0 : FVec Ideal S8x128x768 .f32) (x1 : Vec Ideal S8x128 .i32) (x4 : FVec Ideal S768x128 .bf16)
    (r : Fin 8 → Fin 64)
    (hx0 : ∀ (b : Fin 8) (s : Fin 128) (h : Fin 768), x0 (ix3 b s h) = Q (ix3 (r b) s h))
    (hx1 : ∀ (b : Fin 8) (s : Fin 128), x1 (ix2 b s) = QM (ix2 (r b) s))
    (hx4 : ∀ (h : Fin 768) (d : Fin 128), x4 (ix2 h d) = W d h) (b : Fin 8) (s d : Fin 128) :
    Gen.k0_pay4 (F := Ideal) x4 x1 x0 (ix3 b s d) = tokUnit Q QM W (r b) s d := by
  rw [Payload.unitQ_apply x4 x1 x0 b s d, wOf_eq W x4 hx4]
  exact tokUnit_congr x0 x1 Q QM W b s (r b) s (fun h => hx0 b s h) (hx1 b s) d

/-- A tile's unit document token over a document block that agrees with the arrays on the tile's rows and tokens. -/
theorem unitD (x2 : FVec Ideal S8x512x768 .f32) (x3 : Vec Ideal S8x512 .i32) (r : Fin 8 → Fin 64) (tk : Fin 512 → Fin 1024)
    (hx2 : ∀ (b : Fin 8) (u : Fin 512) (h : Fin 768), x2 (ix3 b u h) = D (ix3 (r b) (tk u) h))
    (hx3 : ∀ (b : Fin 8) (u : Fin 512), x3 (ix2 b u) = DM (ix2 (r b) (tk u))) (b : Fin 8) (u : Fin 512) (d : Fin 128) :
    tokUnit x2 x3 W b u d = tokUnit D DM W (r b) (tk u) d :=
  tokUnit_congr x2 x3 D DM W b u (r b) (tk u) (fun h => hx2 b u h) (hx3 b u) d

/-- The running best raised over a tile, when the kept unit queries are the arrays' unit query tokens. -/
theorem raised (x2 : FVec Ideal S8x512x768 .f32) (x3 : Vec Ideal S8x512 .i32) (x4 : FVec Ideal S768x128 .bf16)
    (xs1 : FVec Ideal S8x128x128 .bf16) (xs0 : FVec Ideal S8x128 .f32) (r : Fin 8 → Fin 64) (tk : Fin 512 → Fin 1024)
    (hx2 : ∀ (b : Fin 8) (u : Fin 512) (h : Fin 768), x2 (ix3 b u h) = D (ix3 (r b) (tk u) h))
    (hx3 : ∀ (b : Fin 8) (u : Fin 512), x3 (ix2 b u) = DM (ix2 (r b) (tk u)))
    (hx4 : ∀ (h : Fin 768) (d : Fin 128), x4 (ix2 h d) = W d h)
    (hs1 : ∀ (b : Fin 8) (s d : Fin 128), xs1 (ix3 b s d) = tokUnit Q QM W (r b) s d) (b : Fin 8) (s : Fin 128) :
    Gen.k0_pay5 (F := Ideal) x4 x3 x2 xs1 xs0 (ix2 b s) = max (xs0 (ix2 b s)) (tileBest Q QM D DM W tk (r b) s) := by
  rw [Payload.raise_apply x4 x3 x2 xs1 xs0 b s, wOf_eq W x4 hx4]
  refine congrArg (max (xs0 (ix2 b s))) ?_
  unfold tileBest sim
  refine congrArg (fun f => Finset.fold max (⊥ : EReal) f (Finset.univ : Finset (Fin 512))) (funext fun u => ?_)
  refine Finset.sum_congr rfl fun d _ => ?_
  rw [hs1 b s d, unitD D DM W x2 x3 r tk hx2 hx3 b u d]

/-- First tile: the running best is −∞ raised by the tile's greatest similarities. -/
theorem first_best (x0 : FVec Ideal S8x128x768 .f32) (x1 : Vec Ideal S8x128 .i32) (x2 : FVec Ideal S8x512x768 .f32)
    (x3 : Vec Ideal S8x512 .i32) (x4 : FVec Ideal S768x128 .bf16) (r : Fin 8 → Fin 64) (tk : Fin 512 → Fin 1024)
    (hx0 : ∀ (b : Fin 8) (s : Fin 128) (h : Fin 768), x0 (ix3 b s h) = Q (ix3 (r b) s h))
    (hx1 : ∀ (b : Fin 8) (s : Fin 128), x1 (ix2 b s) = QM (ix2 (r b) s))
    (hx2 : ∀ (b : Fin 8) (u : Fin 512) (h : Fin 768), x2 (ix3 b u h) = D (ix3 (r b) (tk u) h))
    (hx3 : ∀ (b : Fin 8) (u : Fin 512), x3 (ix2 b u) = DM (ix2 (r b) (tk u)))
    (hx4 : ∀ (h : Fin 768) (d : Fin 128), x4 (ix2 h d) = W d h) (b : Fin 8) (s : Fin 128) :
    Gen.k0_pay5 (F := Ideal) x4 x3 x2 (Gen.k0_pay4 x4 x1 x0) (Gen.k0_pay3 (F := Ideal)) (ix2 b s)
      = max ⊥ (tileBest Q QM D DM W tk (r b) s) := by
  rw [raised Q QM D DM W x2 x3 x4 (Gen.k0_pay4 x4 x1 x0) (Gen.k0_pay3 (F := Ideal)) r tk hx2 hx3 hx4
    (fun b s d => first_unitQ Q QM W x0 x1 x4 r hx0 hx1 hx4 b s d) b s, Payload.fill_apply]

/-- Second tile: the output block's row sums, handed what the first tile left. -/
theorem second_out (x2 : FVec Ideal S8x512x768 .f32) (x3 : Vec Ideal S8x512 .i32) (x4 : FVec Ideal S768x128 .bf16)
    (xs0 : FVec Ideal S8x128 .f32) (xs1 : FVec Ideal S8x128x128 .bf16) (r : Fin 8 → Fin 64) (tk0 tk1 : Fin 512 → Fin 1024)
    (hx2 : ∀ (b : Fin 8) (u : Fin 512) (h : Fin 768), x2 (ix3 b u h) = D (ix3 (r b) (tk1 u) h))
    (hx3 : ∀ (b : Fin 8) (u : Fin 512), x3 (ix2 b u) = DM (ix2 (r b) (tk1 u)))
    (hx4 : ∀ (h : Fin 768) (d : Fin 128), x4 (ix2 h d) = W d h)
    (hs1 : ∀ (b : Fin 8) (s d : Fin 128), xs1 (ix3 b s d) = tokUnit Q QM W (r b) s d)
    (hs0 : ∀ (b : Fin 8) (s : Fin 128), xs0 (ix2 b s) = max ⊥ (tileBest Q QM D DM W tk0 (r b) s)) (b : Fin 8) (u : Fin 1) :
    Gen.k0_pay1 (F := Ideal) (Gen.k0_pay5 x4 x3 x2 xs1 xs0) (ix2 b u)
      = ∑ s : Fin 128, max (max ⊥ (tileBest Q QM D DM W tk0 (r b) s)) (tileBest Q QM D DM W tk1 (r b) s) := by
  rw [Payload.rowSum_apply (Gen.k0_pay5 x4 x3 x2 xs1 xs0) b u]
  refine Finset.sum_congr rfl fun s _ => ?_
  rw [raised Q QM D DM W x2 x3 x4 xs1 xs0 r tk1 hx2 hx3 hx4 hs1 b s, hs0 b s]

/-- The two halves of the 1024 document tokens. -/
def half0 (u : Fin 512) : Fin 1024 := ⟨u.val, by omega⟩
def half1 (u : Fin 512) : Fin 1024 := ⟨512 + u.val, by omega⟩

/-- With the two tiles the two halves, the row sum above is the score of the row. -/
theorem sum_two_tiles_eq_score (Wm : S128x768.Idx → EReal) (r : Fin 64) :
    (∑ s : Fin 128, max (max ⊥ (tileBest Q QM D DM (fun d h => Wm (ix2 d h)) half0 r s))
        (tileBest Q QM D DM (fun d h => Wm (ix2 d h)) half1 r s))
      = score Q QM D DM Wm r := by
  unfold score
  refine Finset.sum_congr rfl fun s _ => ?_
  exact (fold_max_two_tiles fun t => ∑ d : Fin 128,
    tokUnit Q QM (fun d h => Wm (ix2 d h)) r s d * tokUnit D DM (fun d h => Wm (ix2 d h)) r t d).symm

end Cert.KernelIdeal.Tiles

end
-- ==== Proof.Blocks.lean ====
/-
  The blocks the body is handed, read off the arrays they were cut from.

  The grid has 16 points; point t works on batch tile t / 2 (rows 8·(t/2) … 8·(t/2)+7) and document tile t % 2 (tokens
  512·(t%2) … 512·(t%2)+511).  A query block holds all 128 tokens of the tile's 8 rows; a document block the tile's 512
  tokens of the same rows; the weight block is the whole 768 × 128 array a host transpose made of the 128 × 768 weights;
  the output block holds the 8 rows' entries of the 64 × 1 result.
-/
import proofs.«142473_j77850577207387_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F] [Named F]
variable (m : (ℓ : Loc nD τ sig) → Buf (Elt F) ℓ)

/-! ## Where each window's block sits, point by point -/

theorem idx_q : ∀ t : Fin cfg0.N, win0_0.index t 0 = t.val / 2 ∧ win0_0.index t 1 = 0 ∧ win0_0.index t 2 = 0 :=
  (by decide +kernel : ∀ t : Fin grid0.N, win0_0.index t 0 = t.val / 2 ∧ win0_0.index t 1 = 0 ∧ win0_0.index t 2 = 0)
theorem idx_qm : ∀ t : Fin cfg0.N, win0_1.index t 0 = t.val / 2 ∧ win0_1.index t 1 = 0 :=
  (by decide +kernel : ∀ t : Fin grid0.N, win0_1.index t 0 = t.val / 2 ∧ win0_1.index t 1 = 0)
theorem idx_d : ∀ t : Fin cfg0.N, win0_2.index t 0 = t.val / 2 ∧ win0_2.index t 1 = t.val % 2 ∧ win0_2.index t 2 = 0 :=
  (by decide +kernel : ∀ t : Fin grid0.N, win0_2.index t 0 = t.val / 2 ∧ win0_2.index t 1 = t.val % 2 ∧ win0_2.index t 2 = 0)
theorem idx_dm : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)
theorem idx_w : ∀ t : Fin cfg0.N, win0_4.index t 0 = 0 ∧ win0_4.index t 1 = 0 :=
  (by decide +kernel : ∀ t : Fin grid0.N, win0_4.index t 0 = 0 ∧ win0_4.index t 1 = 0)
theorem idx_o : ∀ t : Fin cfg0.N, win0_5.index t 0 = t.val / 2 ∧ win0_5.index t 1 = 0 :=
  (by decide +kernel : ∀ t : Fin grid0.N, win0_5.index t 0 = t.val / 2 ∧ win0_5.index t 1 = 0)

/-- Row `b` of point `t`'s batch tile, as a row of the whole batch. -/
def row (t : Fin cfg0.N) (b : Fin 8) : Fin 64 :=
  ⟨8 * (t.val / 2) + b.val, by have := t.isLt; have hN : cfg0.N = 16 := N_0; have := b.isLt; omega⟩

/-- Token `u` of point `t`'s document tile, as a token of the whole document. -/
def tok (t : Fin cfg0.N) (u : Fin 512) : Fin 1024 :=
  ⟨512 * (t.val % 2) + u.val, by have := u.isLt; omega⟩

/-! ## The blocks -/

/-- The query block at (b, s, h) is the query array at (row, s, h). -/
theorem qblk_apply (c : Dev nD) (t : Fin cfg0.N) (b : Fin 8) (s : Fin 128) (h : Fin 768) :
    (iblk m c 0 t : Vec F S8x128x768 .f32) (ix3 b s h) = V m c main_arg0 (ix3 (row t b) s h) := by
  have hi := idx_q t
  unfold iblk
  rw [View.read_apply]
  show V m c main_arg0 _ = V m c main_arg0 _
  congr 1
  funext a
  apply Fin.ext
  match a with
  | ⟨0, _⟩ => show win0_0.index t 0 * 8 + 1 * b.val = 8 * (t.val / 2) + b.val; rw [hi.1]; omega
  | ⟨1, _⟩ => show win0_0.index t 1 * 128 + 1 * s.val = s.val; rw [hi.2.1]; omega
  | ⟨2, _⟩ => show win0_0.index t 2 * 768 + 1 * h.val = h.val; rw [hi.2.2]; omega

/-- The query mask block at (b, s) is the query mask array at (row, s). -/
theorem qmblk_apply (c : Dev nD) (t : Fin cfg0.N) (b : Fin 8) (s : Fin 128) :
    (iblk m c 1 t : Vec F S8x128 .i32) (ix2 b s) = V m c main_arg1 (ix2 (row t b) s) := by
  have hi := idx_qm t
  unfold iblk
  rw [View.read_apply]
  show V m c main_arg1 _ = V m c main_arg1 _
  congr 1
  funext a
  apply Fin.ext
  match a with
  | ⟨0, _⟩ => show win0_1.index t 0 * 8 + 1 * b.val = 8 * (t.val / 2) + b.val; rw [hi.1]; omega
  | ⟨1, _⟩ => show win0_1.index t 1 * 128 + 1 * s.val = s.val; rw [hi.2]; omega

/-- The document block at (b, u, h) is the document array at (row, token, h). -/
theorem dblk_apply (c : Dev nD) (t : Fin cfg0.N) (b : Fin 8) (u : Fin 512) (h : Fin 768) :
    (iblk m c 2 t : Vec F S8x512x768 .f32) (ix3 b u h) = V m c main_arg2 (ix3 (row t b) (tok t u) h) := by
  have hi := idx_d t
  unfold iblk
  rw [View.read_apply]
  show V m c main_arg2 _ = V m c main_arg2 _
  congr 1
  funext a
  apply Fin.ext
  match a with
  | ⟨0, _⟩ => show win0_2.index t 0 * 8 + 1 * b.val = 8 * (t.val / 2) + b.val; rw [hi.1]; omega
  | ⟨1, _⟩ => show win0_2.index t 1 * 512 + 1 * u.val = 512 * (t.val % 2) + u.val; rw [hi.2.1]; omega
  | ⟨2, _⟩ => show win0_2.index t 2 * 768 + 1 * h.val = h.val; rw [hi.2.2]; omega

/-- The document mask block at (b, u) is the document mask array at (row, token). -/
theorem dmblk_apply (c : Dev nD) (t : Fin cfg0.N) (b : Fin 8) (u : Fin 512) :
    (iblk m c 3 t : Vec F S8x512 .i32) (ix2 b u) = V m c main_arg3 (ix2 (row t b) (tok t u)) := by
  have hi := idx_dm t
  unfold iblk
  rw [View.read_apply]
  show V m c main_arg3 _ = V m c main_arg3 _
  congr 1
  funext a
  apply Fin.ext
  match a with
  | ⟨0, _⟩ => show win0_3.index t 0 * 8 + 1 * b.val = 8 * (t.val / 2) + b.val; rw [hi.1]; omega
  | ⟨1, _⟩ => show win0_3.index t 1 * 512 + 1 * u.val = 512 * (t.val % 2) + u.val; rw [hi.2]; omega

/-- The weight block is the whole transposed weight array. -/
theorem wblk_apply (c : Dev nD) (t : Fin cfg0.N) (h : Fin 768) (d : Fin 128) :
    (iblk m c 4 t : Vec F S768x128 .bf16) (ix2 h d) = V m c main_v1 (ix2 h d) := by
  have hi := idx_w t
  unfold iblk
  rw [View.read_apply]
  show V m c main_v1 _ = V m c main_v1 _
  congr 1
  funext a
  apply Fin.ext
  match a with
  | ⟨0, _⟩ => show win0_4.index t 0 * 768 + 1 * h.val = h.val; rw [hi.1]; omega
  | ⟨1, _⟩ => show win0_4.index t 1 * 128 + 1 * d.val = d.val; rw [hi.2]; omega

/-- The transposed weight array, as the two host operations before the region compute it from the weights. -/
theorem V_weights (c : Dev nD) :
    (V m c main_v1 : S768x128.Idx → Elt F .bf16)
      = truncf .bf16 (transpose S768x128 [1, 0] (m ((c : Thread nD τ).loc main_arg4)) Facts₀.transposes_S128x768_S768x128_1_0)
          Facts₀.bitsLt_bf16_f32 := by
  show StableHlo.after hostOps0 (fun b => m (c, b)) (Proc.devRef .tc main_v1) = _
  after_results

end Cert.KernelIdeal.Blocks

end
-- ==== Proof.LibIdx.lean ====
/-
  Indices of arrays of small rank, written by coordinates: an index whose coordinates are given numbers is the index
  built from them.  Used to identify an index computed by a window's block map, or by a contraction's operand map, with
  the index a specification names.
-/
import Idealize.ShloMosaic.Lib.ValueIdx

namespace Cert.Proof.LibIdx

open Idealize.ShloMosaic Idealize.ShloMosaic.ValueIdx

/-- A rank-1 index with the given coordinate is the index built from it. -/
theorem ix1_ext {n0 : Nat} (x : (⟨1, ![n0]⟩ : Shape).Idx) (a : Fin n0) (h0 : (x 0 : ℕ) = a) : x = ix1 a := by
  have e0 : x 0 = a := Fin.ext h0
  exact (eq_ix1 x).trans (by rw [e0]; rfl)

/-- A rank-2 index with the given coordinates is the index built from them. -/
theorem ix2_ext {n0 n1 : Nat} (x : (⟨2, ![n0, n1]⟩ : Shape).Idx) (a : Fin n0) (b : Fin n1)
    (h0 : (x 0 : ℕ) = a) (h1 : (x 1 : ℕ) = b) : x = ix2 a b := by
  have e0 : x 0 = a := Fin.ext h0
  have e1 : x 1 = b := Fin.ext h1
  exact (eq_ix2 x).trans (by rw [e0, e1]; rfl)

/-- A rank-3 index with the given coordinates is the index built from them. -/
theorem ix3_ext {n0 n1 n2 : Nat} (x : (⟨3, ![n0, n1, n2]⟩ : Shape).Idx) (a : Fin n0) (b : Fin n1) (c : Fin n2)
    (h0 : (x 0 : ℕ) = a) (h1 : (x 1 : ℕ) = b) (h2 : (x 2 : ℕ) = c) : x = ix3 a b c := by
  have e0 : x 0 = a := Fin.ext h0
  have e1 : x 1 = b := Fin.ext h1
  have e2 : x 2 = c := Fin.ext h2
  exact (eq_ix3 x).trans (by rw [e0, e1, e2]; rfl)

end Cert.Proof.LibIdx
-- ==== Proof.Score.lean ====
/-
  What the kernel's result holds: entry r is the score of batch row r.

  Grid point t works on batch tile t / 2 and document tile t % 2.  At an even point the body leaves the tile's unit query
  tokens and the running best over the first half of the document tokens; the next (odd) point, handed both, raises the
  running best over the second half and writes the row sums into the output block, which is written back to rows
  8·(t/2) … 8·(t/2)+7 of the 64 × 1 result.  An odd point looks back exactly one point, so no induction over the grid is
  needed.  The eight odd points' blocks tile the 64 × 1 array; a final reshape flattens it to 64 entries.
-/
import proofs.«142473_j77850577207387_2_alg».proof.Proof.Pieces
import proofs.«142473_j77850577207387_2_alg».proof.Proof.Tiles
import proofs.«142473_j77850577207387_2_alg».proof.Proof.Blocks
import proofs.«142473_j77850577207387_2_alg».proof.Proof.LibIdx
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.Score

open Cert.KernelIdeal Cert.KernelIdeal.Gen
open Idealize.ShloMosaic Idealize.ShloMosaic.TcCoe Idealize.SL.Sem Idealize.ShloMosaic.ValueIdx Cert.MaxSim
open Idealize.ShloMosaic.Pipeline (Dat)
open Cert.KernelIdeal.Blocks (row tok)
open Cert.KernelIdeal.Tiles (tileBest half0 half1)

variable (m : (ℓ : Loc nD τ sig) → Buf (Elt Ideal) ℓ) (ρ : Dev nD → PrngReg)

/-! ## The argument arrays -/

abbrev Qa (c : Dev nD) : S64x128x768.Idx → EReal := m ((c : Thread nD τ).loc main_arg0)
abbrev QMa (c : Dev nD) : S64x128.Idx → BitVec 32 := m ((c : Thread nD τ).loc main_arg1)
abbrev Da (c : Dev nD) : S64x1024x768.Idx → EReal := m ((c : Thread nD τ).loc main_arg2)
abbrev DMa (c : Dev nD) : S64x1024.Idx → BitVec 32 := m ((c : Thread nD τ).loc main_arg3)
abbrev Wm (c : Dev nD) : S128x768.Idx → EReal := m ((c : Thread nD τ).loc main_arg4)
/-- The weights as (d, h) ↦ W[d, h]. -/
abbrev Wa (c : Dev nD) : Fin 128 → Fin 768 → EReal := fun d h => Wm m c (ix2 d h)

/-! ## The blocks of a point agree with the arrays -/

theorem hq (c : Dev nD) (t : Fin cfg0.N) (b : Fin 8) (s : Fin 128) (h : Fin 768) :
    (iblk m c 0 t : Vec Ideal S8x128x768 .f32) (ix3 b s h) = Qa m c (ix3 (row t b) s h) :=
  (Blocks.qblk_apply m c t b s h).trans (congrFun (V_main_arg0 m c) _)
theorem hqm (c : Dev nD) (t : Fin cfg0.N) (b : Fin 8) (s : Fin 128) :
    (iblk m c 1 t : Vec Ideal S8x128 .i32) (ix2 b s) = QMa m c (ix2 (row t b) s) :=
  (Blocks.qmblk_apply m c t b s).trans (congrFun (V_main_arg1 m c) _)
theorem hd (c : Dev nD) (t : Fin cfg0.N) (b : Fin 8) (u : Fin 512) (h : Fin 768) :
    (iblk m c 2 t : Vec Ideal S8x512x768 .f32) (ix3 b u h) = Da m c (ix3 (row t b) (tok t u) h) :=
  (Blocks.dblk_apply m c t b u h).trans (congrFun (V_main_arg2 m c) _)
theorem hdm (c : Dev nD) (t : Fin cfg0.N) (b : Fin 8) (u : Fin 512) :
    (iblk m c 3 t : Vec Ideal S8x512 .i32) (ix2 b u) = DMa m c (ix2 (row t b) (tok t u)) :=
  (Blocks.dmblk_apply m c t b u).trans (congrFun (V_main_arg3 m c) _)
/-- The weight block at (h, d) is the weight array at (d, h): the host transposed it, and the change of format is the
    identity on the extended reals. -/
theorem hw (c : Dev nD) (t : Fin cfg0.N) (h : Fin 768) (d : Fin 128) :
    (iblk m c 4 t : Vec Ideal S768x128 .bf16) (ix2 h d) = Wa m c d h := by
  refine (Blocks.wblk_apply m c t h d).trans ?_
  rw [Blocks.V_weights m c]
  show transpose S768x128 [1, 0] (m ((c : Thread nD τ).loc main_arg4)) Facts₀.transposes_S128x768_S768x128_1_0 (ix2 h d) = _
  exact transpose_ix2_apply _ _ h d

theorem tok_even (t : Fin cfg0.N) (h0 : t.val % 2 = 0) : tok t = half0 :=
  funext fun u => Fin.ext (by show 512 * (t.val % 2) + u.val = u.val; omega)
theorem tok_odd (t : Fin cfg0.N) (h1 : t.val % 2 = 1) : tok t = half1 :=
  funext fun u => Fin.ext (by show 512 * (t.val % 2) + u.val = 512 + u.val; omega)

/-! ## After an even point -/

/-- The kept unit query tokens are the arrays' unit query tokens of the tile's rows. -/
theorem unitQ_even (c : Dev nD) (t : Fin cfg0.N) (h0 : t.val % 2 = 0) (b : Fin 8) (s d : Fin 128) :
    (outsAt0 m c t.val t.isLt).2.2 (ix3 b s d) = tokUnit (Qa m c) (QMa m c) (Wa m c) (row t b) s d := by
  have h1 : ¬t.val % 2 = 1 := by omega
  rw [outsAt0_A m c t h0 h1]
  dsimp only
  rw [Pieces.unitQ_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t)]
  exact Tiles.first_unitQ (Qa m c) (QMa m c) (Wa m c) (iblk m c 0 t) (iblk m c 1 t) (iblk m c 4 t) (row t)
    (hq m c t) (hqm m c t) (hw m c t) b s d

/-- The running best is −∞ raised by the greatest similarities over the first half of the document tokens. -/
theorem best_even (c : Dev nD) (t : Fin cfg0.N) (h0 : t.val % 2 = 0) (b : Fin 8) (s : Fin 128) :
    (outsAt0 m c t.val t.isLt).2.1 (ix2 b s) = max ⊥ (tileBest (Qa m c) (QMa m c) (Da m c) (DMa m c) (Wa m c) half0 (row t b) s) := by
  have h1 : ¬t.val % 2 = 1 := by omega
  rw [outsAt0_A m c t h0 h1]
  dsimp only
  rw [Pieces.best_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t), ← tok_even t h0]
  exact Tiles.first_best (Qa m c) (QMa m c) (Da m c) (DMa m c) (Wa m c) (iblk m c 0 t) (iblk m c 1 t) (iblk m c 2 t) (iblk m c 3 t) (iblk m c 4 t) (row t) (tok t)
    (hq m c t) (hqm m c t) (hd m c t) (hdm m c t) (hw m c t) b s

/-! ## After an odd point -/

/-- The output block holds, row by row, the score of the row. -/
theorem out_odd (c : Dev nD) (t : Fin cfg0.N) (h1 : t.val % 2 = 1) (b : Fin 8) (u : Fin 1) :
    (outsAt0 m c t.val t.isLt).1 (ix2 b u) = score (Qa m c) (QMa m c) (Da m c) (DMa m c) (Wm m c) (row t b) := by
  have h0 : ¬t.val % 2 = 0 := by omega
  have hlt : t.val - 1 < cfg0.N := Nat.lt_of_le_of_lt (Nat.sub_le _ _) t.isLt
  have hp0 : (⟨t.val - 1, hlt⟩ : Fin cfg0.N).val % 2 = 0 := by show (t.val - 1) % 2 = 0; omega
  have hrow : ∀ b : Fin 8, row ⟨t.val - 1, hlt⟩ b = row t b := fun b =>
    Fin.ext (by show 8 * ((t.val - 1) / 2) + b.val = 8 * (t.val / 2) + b.val; omega)
  rw [outsAt0_B m c t h0 h1]
  dsimp only
  rw [Pieces.out_second c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (iblk m c 0 t) (iblk m c 1 t) (iblk m c 2 t) (iblk m c 3 t) (iblk m c 4 t) (outsAt0 m c (t.val - 1) hlt).2.1 (outsAt0 m c (t.val - 1) hlt).2.2]
  rw [Tiles.second_out (Qa m c) (QMa m c) (Da m c) (DMa m c) (Wa m c) (iblk m c 2 t) (iblk m c 3 t) (iblk m c 4 t)
    (outsAt0 m c (t.val - 1) hlt).2.1 (outsAt0 m c (t.val - 1) hlt).2.2 (row t) half0 half1
    (by rw [← tok_odd t h1]; exact hd m c t) (by rw [← tok_odd t h1]; exact hdm m c t) (hw m c t)
    (fun b s d => (unitQ_even m c ⟨t.val - 1, hlt⟩ hp0 b s d).trans (by rw [hrow b]))
    (fun b s => (best_even m c ⟨t.val - 1, hlt⟩ hp0 b s).trans (by rw [hrow b])) b u]
  exact Tiles.sum_two_tiles_eq_score (Qa m c) (QMa m c) (Da m c) (DMa m c) (Wm m c) (row t b)

/-! ## The 64 × 1 array -/

/-- The 64 × 1 array of scores. -/
def colScore (c : Dev nD) : S64x1.Idx → EReal :=
  fun i => score (Qa m c) (QMa m c) (Da m c) (DMa m c) (Wm m c) ⟨(i 0).val, (i 0).isLt⟩

/-- What an odd point writes back is its block of the array of scores. -/
theorem flushed_eq (c : Dev nD) (t : Fin cfg0.N) (hf : (cfg0.win 5).flush t = true) :
    (dats m 0 c).flushed 5 t = ((cfg0.win 5).blk t).view.read (Elt Ideal) (colScore m c) := by
  have h1 : t.val % 2 = 1 := (flush0_5 t).mp hf
  obtain ⟨e0, e1⟩ := Blocks.idx_o t
  show (cfg0.win 5).cut (grid0.coords t) ((dats m 0 c).after 5 t) = _
  rw [after0_5]
  funext j
  have hj0 : (j 0).val < 8 := (j 0).isLt
  have hj1 : (j 1).val < 1 := (j 1).isLt
  have e : (cfg0.win 5).xinj (grid0.coords t) j = ix2 (⟨(j 0).val, hj0⟩ : Fin 8) (⟨(j 1).val, hj1⟩ : Fin 1) :=
    Cert.Proof.LibIdx.ix2_ext _ _ _ rfl rfl
  show (outsAt0 m c t.val t.isLt).1 ((cfg0.win 5).xinj (grid0.coords t) j) = colScore m c (((cfg0.win 5).blk t).view.emb j)
  rw [e, out_odd m c t h1]
  unfold colScore
  refine congrArg (score (Qa m c) (QMa m c) (Da m c) (DMa m c) (Wm m c)) (Fin.ext ?_)
  show 8 * (t.val / 2) + (j 0).val = win0_5.index t 0 * 8 + 1 * (j 0).val
  rw [e0]; omega

/-- An index of the 64 × 1 array is in point `t`'s block iff each coordinate is in the block's range on its axis. -/
theorem mem_blk (t : Fin cfg0.N) (i : S64x1.Idx) :
    i ∈ ((cfg0.win 5).blk t).view.set ↔ ∀ a : Fin 2, win0_5.index t a * S8x1.size a ≤ (i a).val ∧ (i a).val < win0_5.index t a * S8x1.size a + S8x1.size a := by
  show i ∈ ((View.whole main_v2).slice (win0_5.rect t)).set ↔ _
  rw [View.set_slice_whole, Rect.mem_set_unit]
  exact Iff.rfl

/-- Row r of the array is in the block of the odd point of batch tile r / 8. -/
theorem cover (i : S64x1.Idx) : ∃ t : Fin cfg0.N, (cfg0.win 5).flush t = true ∧ i ∈ ((cfg0.win 5).blk t).view.set := by
  have hi0 : (i 0).val < 64 := (i 0).isLt
  have hi1 : (i 1).val < 1 := (i 1).isLt
  have hN : cfg0.N = 16 := N_0
  have hlt : 2 * ((i 0).val / 8) + 1 < cfg0.N := by omega
  obtain ⟨e0, e1⟩ := Blocks.idx_o ⟨2 * ((i 0).val / 8) + 1, hlt⟩
  refine ⟨⟨2 * ((i 0).val / 8) + 1, hlt⟩, (flush0_5 _).mpr (by show (2 * ((i 0).val / 8) + 1) % 2 = 1; omega), ?_⟩
  rw [mem_blk]
  intro a
  match a with
  | ⟨0, _⟩ =>
    show win0_5.index ⟨2 * ((i 0).val / 8) + 1, hlt⟩ 0 * 8 ≤ (i 0).val ∧ (i 0).val < win0_5.index ⟨2 * ((i 0).val / 8) + 1, hlt⟩ 0 * 8 + 8
    rw [e0]; show (2 * ((i 0).val / 8) + 1) / 2 * 8 ≤ (i 0).val ∧ (i 0).val < (2 * ((i 0).val / 8) + 1) / 2 * 8 + 8; omega
  | ⟨1, _⟩ =>
    show win0_5.index ⟨2 * ((i 0).val / 8) + 1, hlt⟩ 1 * 1 ≤ (i 1).val ∧ (i 1).val < win0_5.index ⟨2 * ((i 0).val / 8) + 1, hlt⟩ 1 * 1 + 1
    rw [e1]; omega

/-- The 64 × 1 array ends holding the scores. -/
theorem final_out (c : Dev nD) : (dats m 0 c).arrAt 5 cfg0.N = colScore m c :=
  (dats m 0 c).arrAt_eq_of_cover 5 (colScore m c) (fun t hf => flushed_eq m c t hf) cover

end Cert.KernelIdeal.Score

end
-- ==== Proof.KernelRun.lean ====
/-
  The idealized kernel's run, read: its result is the array of scores, its arguments are unchanged.

  After the region the program reshapes the 64 × 1 array to 64 entries; entry r of the reshape is entry (r, 0) of the
  array, the score of batch row r.
-/
import proofs.«142473_j77850577207387_2_alg».proof.Proof.Score

set_option maxRecDepth 16384

noncomputable section

namespace Cert.KernelIdeal.Score

open Cert.KernelIdeal Cert.KernelIdeal.Gen
open Idealize.ShloMosaic Idealize.ShloMosaic.TcCoe Idealize.SL.Sem Idealize.ShloMosaic.ValueIdx Cert.MaxSim
open Idealize.ShloMosaic.Pipeline (Dat)

variable (m : (ℓ : Loc nD τ sig) → Buf (Elt Ideal) ℓ) (ρ : Dev nD → PrngReg)

/-- What the host operation after the region leaves in the result: the reshape of the 64 × 1 array of scores. -/
theorem tail_eq (c : Dev nD) :
    Pipeline.afterTail₀ cfgs (dats m) 0 (V0 m) [hostOps1] c main_v3
      = shapeCast S64 (colScore m c) Facts₀.shapeCasts_S64x1_S64 := by
  have hA : Pipeline.withArrays (cfgs 0).spec c (V0 m c) (fun w => (dats m 0 c).arrAt w (cfgs 0).N) (Proc.tc.devRef main_v2)
      = colScore m c :=
    (Pipeline.withArrays_arr spec0 launch0.win.arr_inj c _ _ 5).trans (final_out m c)
  unfold Pipeline.afterTail₀
  show StableHlo.after hostOps1 _ (Proc.devRef .tc main_v3) = _
  after_results
  funext i
  show shapeCast S64 (Pipeline.withArrays (cfgs 0).spec c (V0 m c) (fun w => (dats m 0 c).arrAt w (cfgs 0).N) (Proc.tc.devRef main_v2))
    Facts₀.shapeCasts_S64x1_S64 i = _
  rw [hA]

/-- The reshape of the 64 × 1 array of scores is the specification's result array. -/
theorem result_eq (c : Dev nD) :
    shapeCast S64 (colScore m c) Facts₀.shapeCasts_S64x1_S64 = G (Qa m c) (QMa m c) (Da m c) (DMa m c) (Wm m c) := by
  funext i
  obtain ⟨r, rfl⟩ : ∃ r : Fin 64, i = ix1 r :=
    ⟨⟨(i 0).val, (i 0).isLt⟩, funext fun a => by match a with | ⟨0, _⟩ => rfl⟩
  refine (shapeCast_apply (colScore m c) Facts₀.shapeCasts_S64x1_S64 (ix1 r) (ix2 r (0 : Fin 1)) (by
    rw [Shape.rowMajor_val_two, Shape.rowMajor_val_one]
    show r.val * 1 + 0 = r.val
    omega)).trans ?_
  rfl

/-- Every weakly fair execution of the idealized kernel terminates with its result at the specification's array of scores
    of the argument arrays, and the argument arrays unchanged. -/
theorem run : θ_run defs (onTc (τ := τ) (main (F := Ideal))) ⟨m, fun _ => 0, ρ⟩ fun r => ∀ c : Dev nD,
      r.2.mem ((c : Thread nD τ).loc main_v3) = G (Qa m c) (QMa m c) (Da m c) (DMa m c) (Wm m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v3 (Pipeline.mem_restRefs_of main_v3 (by decide) (by decide))).trans ((tail_eq m c).trans (result_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Score

end
-- ==== Proof.lean ====
/-
  The late-interaction (MaxSim) kernel against its reference, on the extended reals.

  Both programs mask each token's 768 hidden values by the token's mask word, project them onto 128 coordinates by the
  weight matrix, scale the projected token to unit length, take the inner product of every query token with every
  document token of the same batch row, keep for each query token its greatest inner product over the 1024 document
  tokens, and sum those over the 128 query tokens: one score per batch row.

  They differ in two places.  The kernel scales a projected token p by the reciprocal square root of max(|p|², c), the
  reference divides it by max(|p|, ε); with the kernel's constant c read as ε², the exact square of the reference's ε,
  the two are one function of p — for every extended real, because the square root is monotone and |p|² is never
  negative (`Cert.MaxSim.unit_eq_div`).  And the kernel takes the maximum over the document tokens in two tiles of 512,
  carrying the running maximum from one grid point to the next, where the reference takes it over all 1024 at once
  (`Cert.MaxSim.fold_max_two_tiles`).  Neither law needs the inputs to be finite, so the precondition is never opened.

  The modules: Spec (the score as a function of the arrays, and the two laws); RefIsScore (the reference's result is
  that function); Pieces, Rows1024, Rows4096, Payload, Tiles (what one grid point's body computes); Blocks, Score,
  KernelRun (what the kernel's result array ends holding).  The three frames are the generated ones.
-/
import proofs.«142473_j77850577207387_2_alg».proof.Defs
import proofs.«142473_j77850577207387_2_alg».proof.Proof.Gen.Kernel
import proofs.«142473_j77850577207387_2_alg».proof.Proof.Gen.Kernel.Skeleton
import proofs.«142473_j77850577207387_2_alg».proof.Proof.Gen.Kernel.Launch
import proofs.«142473_j77850577207387_2_alg».proof.Proof.Gen.Kernel.Points
import proofs.«142473_j77850577207387_2_alg».proof.Proof.Gen.Kernel.Frame
import proofs.«142473_j77850577207387_2_alg».proof.Proof.Gen.KernelIdeal
import proofs.«142473_j77850577207387_2_alg».proof.Proof.Gen.KernelIdeal.Skeleton
import proofs.«142473_j77850577207387_2_alg».proof.Proof.Gen.KernelIdeal.Launch
import proofs.«142473_j77850577207387_2_alg».proof.Proof.Gen.KernelIdeal.Points
import proofs.«142473_j77850577207387_2_alg».proof.Proof.Gen.KernelIdeal.Frame
import proofs.«142473_j77850577207387_2_alg».proof.Proof.Gen.ReferenceIdeal
import proofs.«142473_j77850577207387_2_alg».proof.Proof.Gen.ReferenceIdeal.Run
import proofs.«142473_j77850577207387_2_alg».proof.Proof.Gen.ReferenceIdeal.Read
import proofs.«142473_j77850577207387_2_alg».proof.Proof.Gen.Pre_finite_inputs
import proofs.«142473_j77850577207387_2_alg».proof.Proof.RefIsScore
import proofs.«142473_j77850577207387_2_alg».proof.Proof.KernelRun
import Idealize.ShloMosaic.PureOps.IdealRules
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's two rewrites: at both of its sites the kernel's constant is read as ε², the value the
    certificate's table gives the name. -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
    IdealRules.named_const.statement Cert.KernelIdeal.κ "eps_sq" .f32 0x179ABE15#32
      ((5316911940649 / 5316911983139663491615228241121378304 : ℝ) : EReal) rfl⟩

/-- From memories that agree on the five arguments, both idealized programs end with the array of scores of those
    arguments. -/
theorem algebraic : Cert.algebraic_KernelIdeal_ReferenceIdeal := by
  intro m ρ m' ρ' _ hagree
  refine ⟨fun c => Cert.MaxSim.G (Cert.KernelIdeal.Score.Qa m c) (Cert.KernelIdeal.Score.QMa m c)
    (Cert.KernelIdeal.Score.Da m c) (Cert.KernelIdeal.Score.DMa m c) (Cert.KernelIdeal.Score.Wm m c),
    Cert.KernelIdeal.Score.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.MaxSim.Ref.ref_eq_G, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
